-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x2048x2048 : Shape := ⟨4, ![8, 3, 2048, 2048]⟩
abbrev S_ : Shape := ⟨0, ![]⟩

class Facts : Prop where
  bcast_S_S8x3x2048x2048 : S_.BroadcastsInDim S8x3x2048x2048 (![] : Fin 0 → Fin S8x3x2048x2048.rank)
  reducesTo_S8x3x2048x2048_S_d0_1_2_3 : S8x3x2048x2048.ReducesTo [0, 1, 2, 3] S_
  h_S_ : 0 < S_.numel

variable [Facts]

def fn {F : FTy → Type} [FloatOps F] (main_arg0 : FVec F S8x3x2048x2048 .f32) : IVec S_ 1 :=
  let main_v0 : FVec F S8x3x2048x2048 .f32 := Host.absf main_arg0
  let main_cst : FVec F S_ .f32 := constant S_ .f32 0x7F800000#32
  let main_v1 : FVec F S8x3x2048x2048 .f32 := broadcastInDim S8x3x2048x2048 ![] bcast_S_S8x3x2048x2048 main_cst
  let main_v2 : IVec S8x3x2048x2048 1 := cmpf .olt main_v0 main_v1
  let main_c : IVec S_ 1 := constantI S_ 1 1#1
  let main_v3 : IVec S_ 1 := (fun x v => Host.reduce IntOp.andi x v reducesTo_S8x3x2048x2048_S_d0_1_2_3 h_S_) main_v2 main_c
  main_v3
-- ==== Kernel.lean ====
abbrev S8x3x2048x2048 : Shape := ⟨4, ![8, 3, 2048, 2048]⟩
abbrev S8x2048x2048 : Shape := ⟨3, ![8, 2048, 2048]⟩
abbrev S1x3x128x2048 : Shape := ⟨4, ![1, 3, 128, 2048]⟩
abbrev S1x128x2048 : Shape := ⟨3, ![1, 128, 2048]⟩
abbrev S128x2048 : Shape := ⟨2, ![128, 2048]⟩
abbrev S3x128x2048 : Shape := ⟨3, ![3, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x3x2048x2048, .f32⟩
  | .hbm, ⟨1, _⟩ => ⟨S8x2048x2048, .f32⟩
  | .local _ .vmem, ⟨0, _⟩ => ⟨S1x3x128x2048, .f32⟩
  | .local _ .vmem, ⟨1, _⟩ => ⟨S1x3x128x2048, .f32⟩
  | .local _ .vmem, ⟨2, _⟩ => ⟨S1x128x2048, .f32⟩
  | .local _ .vmem, ⟨3, _⟩ => ⟨S1x128x2048, .f32⟩
  | _, _ => ⟨S8x3x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  iota_S128x2048_d0_w32 : S128x2048.Iotas .tc 32 [0]
  iota_S128x2048_d1_w32 : S128x2048.Iotas .tc 32 [1]
  inb_S1x3x128x2048_S1x3x128x2048_0_0_0_0 : ∀ a, (![0, 0, 0, 0] : Fin 4 → Nat) a + S1x3x128x2048.size a ≤ S1x3x128x2048.size a
  h_S1x3x128x2048 : 0 < S1x3x128x2048.numel
  shapeCasts_S1x3x128x2048_S3x128x2048 : S1x3x128x2048.ShapeCasts S3x128x2048
  slices_S3x128x2048_o0_0_0_S1x128x2048 : S3x128x2048.Slices ![0, 0, 0] S1x128x2048
  shapeCasts_S1x128x2048_S128x2048 : S1x128x2048.ShapeCasts S128x2048
  slices_S3x128x2048_o1_0_0_S1x128x2048 : S3x128x2048.Slices ![1, 0, 0] S1x128x2048
  slices_S3x128x2048_o2_0_0_S1x128x2048 : S3x128x2048.Slices ![2, 0, 0] S1x128x2048
  inb_S1x128x2048_S1x128x2048_0_0_0 : ∀ a, (![0, 0, 0] : Fin 3 → Nat) a + S1x128x2048.size a ≤ S1x128x2048.size a
  h_S1x128x2048 : 0 < S1x128x2048.numel
  shapeCasts_S128x2048_S1x128x2048 : S128x2048.ShapeCasts S1x128x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128x2048.size a ≤ S8x3x2048x2048.size a
  hwx0_0 : ∀ i : grid0.Coords, EltTy.bits .f32 = 32 ∨ (Rect.block (s := S8x3x2048x2048) S1x3x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S8x2048x2048.size a
  hwx0_1 : ∀ i : grid0.Coords, EltTy.bits .f32 = 32 ∨ (Rect.block (s := S8x2048x2048) S1x128x2048.size (cc0_transform_1 i) (hinb0_1 i)).WholeWords (EltTy.packing .f32)

variable [Facts₀]

abbrev win0_0 : Pipeline.Window sig grid0 :=
  Pipeline.Window.ofSpec (Memref.whole main_arg0) S1x3x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x3x2048x2048 : Shape := ⟨4, ![8, 3, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x1x2048x2048 : Shape := ⟨4, ![1, 1, 2048, 2048]⟩
abbrev S1x2048x2048x1 : Shape := ⟨4, ![1, 2048, 2048, 1]⟩
abbrev S1 : Shape := ⟨1, ![1]⟩
abbrev S1x1x1x1 : Shape := ⟨4, ![1, 1, 1, 1]⟩
abbrev S1x2048x2048 : Shape := ⟨3, ![1, 2048, 2048]⟩
abbrev S8x1x2048x2048 : Shape := ⟨4, ![8, 1, 2048, 2048]⟩
abbrev S8x2048x2048 : Shape := ⟨3, ![8, 2048, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8x3x2048x2048, .f32⟩
  | .hbm, ⟨1, _⟩ => ⟨S2048, .i32⟩
  | .hbm, ⟨2, _⟩ => ⟨S2048x1, .i32⟩
  | .hbm, ⟨3, _⟩ => ⟨S2048, .i32⟩
  | .hbm, ⟨4, _⟩ => ⟨S1x2048, .i32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S_, .i1⟩
  | .hbm, ⟨24, _⟩ => ⟨S2048x2048, .i1⟩
  | .hbm, ⟨25, _⟩ => ⟨S2048x2048, .i1⟩
  | .hbm, ⟨26, _⟩ => ⟨S2048x2048, .i1⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S2048x1, .i32⟩
  | .hbm, ⟨40, _⟩ => ⟨S2048x1, .i32⟩
  | .hbm, ⟨41, _⟩ => ⟨S_, .i32⟩
  | .hbm, ⟨42, _⟩ => ⟨S2048x1, .i32⟩
  | .hbm, ⟨43, _⟩ => ⟨S2048x1, .i1⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S_, .i32⟩
  | .hbm, ⟨48, _⟩ => ⟨S_, .i1⟩
  | .hbm, ⟨49, _⟩ => ⟨S2048x1, .i1⟩
  | .hbm, ⟨50, _⟩ => ⟨S2048x1, .i1⟩
  | .hbm, ⟨51, _⟩ => ⟨S2048x1, .i1⟩
  | .hbm, ⟨52, _⟩ => ⟨S2048x1, .i32⟩
  | .hbm, ⟨53, _⟩ => ⟨S2048x1, .i32⟩
  | .hbm, ⟨54, _⟩ => ⟨S2048x1, .i32⟩
  | .hbm, ⟨55, _⟩ => ⟨S_, .i32⟩
  | .hbm, ⟨56, _⟩ => ⟨S2048x1, .i32⟩
  | .hbm, ⟨57, _⟩ => ⟨S2048x1, .i1⟩
  | .hbm, ⟨58, _⟩ => ⟨S_, .i32⟩
  | .hbm, ⟨59, _⟩ => ⟨S_, .i32⟩
  | .hbm, ⟨60, _⟩ => ⟨S2048x1, .i32⟩
  | .hbm, ⟨61, _⟩ => ⟨S2048x1, .i32⟩
  | .hbm, ⟨62, _⟩ => ⟨S2048x1, .i32⟩
  | .hbm, ⟨63, _⟩ => ⟨S_, .i32⟩
  | .hbm, ⟨64, _⟩ => ⟨S2048x2048, .i32⟩
  | .hbm, ⟨65, _⟩ => ⟨S2048x2048, .i32⟩
  | .hbm, ⟨66, _⟩ => ⟨S2048x2048, .i32⟩
  | .hbm, ⟨67, _⟩ => ⟨S1x1x2048x2048, .i32⟩
  | .hbm, ⟨68, _⟩ => ⟨S1x1x2048x2048, .i32⟩
  | .hbm, ⟨69, _⟩ => ⟨S_, .i32⟩
  | .hbm, ⟨70, _⟩ => ⟨S1x1x2048x2048, .i32⟩
  | .hbm, ⟨71, _⟩ => ⟨S1x1x2048x2048, .i1⟩
  | .hbm, ⟨72, _⟩ => ⟨S_, .i32⟩
  | .hbm, ⟨73, _⟩ => ⟨S1x1x2048x2048, .i32⟩
  | .hbm, ⟨74, _⟩ => ⟨S1x1x2048x2048, .i32⟩
  | .hbm, ⟨75, _⟩ => ⟨S1x1x2048x2048, .i32⟩
  | .hbm, ⟨76, _⟩ => ⟨S1x2048x2048x1, .i32⟩
  | .hbm, ⟨77, _⟩ => ⟨S1, .i32⟩
  | .hbm, ⟨78, _⟩ => ⟨S_, .i32⟩
  | .hbm, ⟨79, _⟩ => ⟨S1x2048x2048x1, .i32⟩
  | .hbm, ⟨80, _⟩ => ⟨S1x2048x2048x1, .i1⟩
  | .hbm, ⟨81, _⟩ => ⟨S1x1x1x1, .i32⟩
  | .hbm, ⟨82, _⟩ => ⟨S1x2048x2048x1, .i32⟩
  | .hbm, ⟨83, _⟩ => ⟨S1x2048x2048x1, .i1⟩
  | .hbm, ⟨84, _⟩ => ⟨S1x2048x2048x1, .i1⟩
  | .hbm, ⟨85, _⟩ => ⟨S_, .i1⟩
  | .hbm, ⟨86, _⟩ => ⟨S1x2048x2048, .i1⟩
  | .hbm, ⟨87, _⟩ => ⟨S8x1x2048x2048, .f32⟩
  | .hbm, ⟨88, _⟩ => ⟨S8x1x2048x2048, .i1⟩
  | .hbm, ⟨89, _⟩ => ⟨S_, .f32⟩
  | .hbm, ⟨90, _⟩ => ⟨S8x1x2048x2048, .f32⟩
  | .hbm, ⟨91, _⟩ => ⟨S8x1x2048x2048, .f32⟩
  | .hbm, ⟨92, _⟩ => ⟨S8x2048x2048, .f32⟩
  | _, _ => ⟨S8x3x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v10 : Ref sig .tc := ⟨.hbm, 54, rfl⟩
abbrev main_c_2 : Ref sig .tc := ⟨.hbm, 55, rfl⟩
abbrev main_v11 : Ref sig .tc := ⟨.hbm, 56, rfl⟩
abbrev main_v12 : Ref sig .tc := ⟨.hbm, 57, rfl⟩
abbrev main_c_3 : Ref sig .tc := ⟨.hbm, 58, rfl⟩
abbrev main_c_4 : Ref sig .tc := ⟨.hbm, 59, rfl⟩
abbrev main_call2_v0 : Ref sig .tc := ⟨.hbm, 60, rfl⟩
abbrev main_call2_v1 : Ref sig .tc := ⟨.hbm, 61, rfl⟩
abbrev main_v13 : Ref sig .tc := ⟨.hbm, 62, rfl⟩
abbrev main_c_5 : Ref sig .tc := ⟨.hbm, 63, rfl⟩
abbrev main_call3_v0 : Ref sig .tc := ⟨.hbm, 64, rfl⟩
abbrev main_call3_v1 : Ref sig .tc := ⟨.hbm, 65, rfl⟩
abbrev main_v14 : Ref sig .tc := ⟨.hbm, 66, rfl⟩
abbrev main_v15 : Ref sig .tc := ⟨.hbm, 67, rfl⟩
abbrev main_call4_v0 : Ref sig .tc := ⟨.hbm, 68, rfl⟩
abbrev main_call4_c : Ref sig .tc := ⟨.hbm, 69, rfl⟩
abbrev main_call4_v1 : Ref sig .tc := ⟨.hbm, 70, rfl⟩
abbrev main_call4_v2 : Ref sig .tc := ⟨.hbm, 71, rfl⟩
abbrev main_call4_c_0 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_v6 : Ref sig .tc := ⟨.hbm, 76, rfl⟩
abbrev main_call4_c_1 : Ref sig .tc := ⟨.hbm, 77, rfl⟩
abbrev main_call4_c_2 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_v12 : Ref sig .tc := ⟨.hbm, 84, rfl⟩
abbrev main_call4_c_3 : Ref sig .tc := ⟨.hbm, 85, rfl⟩
abbrev main_call4_v13 : Ref sig .tc := ⟨.hbm, 86, rfl⟩
abbrev main_call4_v14 : Ref sig .tc := ⟨.hbm, 87, rfl⟩
abbrev main_call4_v15 : Ref sig .tc := ⟨.hbm, 88, rfl⟩
abbrev main_call4_cst : Ref sig .tc := ⟨.hbm, 89, rfl⟩
abbrev main_call4_v16 : Ref sig .tc := ⟨.hbm, 90, rfl⟩
abbrev main_v16 : Ref sig .tc := ⟨.hbm, 91, rfl⟩
abbrev main_v17 : Ref sig .tc := ⟨.hbm, 92, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S_S2048x1 : S_.BroadcastsInDim S2048x1 (![] : Fin 0 → Fin S2048x1.rank)
  bcast_S2048x2048_S1x1x2048x2048_2_3 : S2048x2048.BroadcastsInDim S1x1x2048x2048 (![2, 3] : Fin 2 → Fin S1x1x2048x2048.rank)
  bcast_S_S1x1x2048x2048 : S_.BroadcastsInDim S1x1x2048x2048 (![] : Fin 0 → Fin S1x1x2048x2048.rank)
  shapeCasts_S1x1x2048x2048_S1x2048x2048x1 : S1x1x2048x2048.ShapeCasts S1x2048x2048x1
  bcast_S_S1x2048x2048x1 : S_.BroadcastsInDim S1x2048x2048x1 (![] : Fin 0 → Fin S1x2048x2048x1.rank)
  bcast_S1_S1x1x1x1_3 : S1.BroadcastsInDim S1x1x1x1 (![3] : Fin 1 → Fin S1x1x1x1.rank)
  bcast_S1x1x1x1_S1x2048x2048x1_0_1_2_3 : S1x1x1x1.BroadcastsInDim S1x2048x2048x1 (![0, 1, 2, 3] : Fin 4 → Fin S1x2048x2048x1.rank)
  reducesTo_S1x2048x2048x1_S1x2048x2048_d3 : S1x2048x2048x1.ReducesTo [3] S1x2048x2048
  h_S_ : 0 < S_.numel
  bcast_S1x2048x2048_S8x1x2048x2048_1_2_3 : S1x2048x2048.BroadcastsInDim S8x1x2048x2048 (![1, 2, 3] : Fin 3 → Fin S8x1x2048x2048.rank)
  bcast_S_S8x1x2048x2048 : S_.BroadcastsInDim S8x1x2048x2048 (![] : Fin 0 → Fin S8x1x2048x2048.rank)
  shapeCasts_S8x1x2048x2048_S8x2048x2048 : S8x1x2048x2048.ShapeCasts S8x2048x2048
  gather_S8x3x2048x2048_S1x2048x2048x1_S8x1x2048x2048_0_1_23_12_1_3_8111_wf : GatherDims.WF S8x3x2048x2048 S1x2048x2048x1 S8x1x2048x2048 [0] [1] [2, 3] [1] [1, 2] 3 ![8, 1, 1, 1]

variable [Facts₀]

def gather_S8x3x2048x2048_S1x2048x2048x1_S8x1x2048x2048_0_1_23_12_1_3_8111 : GatherDims S8x3x2048x2048 S1x2048x2048x1 S8x1x2048x2048 where
  offsetDims := [0]
  collapsedSliceDims := [1]
  operandBatchingDims := [2, 3]
  startIndicesBatchingDims := [1, 2]
  startIndexMap := [1]
  indexVectorDim := 3
  sliceSizes := ![8, 1, 1, 1]
  wf := gather_S8x3x2048x2048_S1x2048x2048x1_S8x1x2048x2048_0_1_23_12_1_3_8111_wf

class Facts : Prop extends Facts₀ where

variable [Facts]
-- ==== Proof.Spec.lean ====
/-
  The specification both programs are compared with: the Bayer mosaic of an image.

  An image is an array `x` of shape [8, 3, 2048, 2048] (batch, channel, row, column). Its mosaic is the array of shape
  [8, 2048, 2048] that keeps, at pixel (r, q), ONE channel of the image, chosen by the parities of r and q:
      r + q even           ->  channel 1,
      r + q odd, r even    ->  channel 2,
      r + q odd, r odd     ->  channel 0.
  Nothing is computed with the pixel values: the result is a selection, so the statement holds for values of any type.
-/
import Idealize.ShloMosaic.Lib.ValueIdx

namespace Cert.Mosaic

open Idealize.ShloMosaic Idealize.ShloMosaic.ValueIdx

/-- The channel kept at pixel (r, q). -/
def chan (r q : Nat) : Fin 3 :=
  if (r + q) % 2 = 0 then 1 else if r % 2 = 0 then 2 else 0

/-- The mosaic of an image, index by index: batch b, row r, column q reads the image at channel `chan r q`. -/
def mosaic {α : Type} (x : (⟨4, ![8, 3, 2048, 2048]⟩ : Shape).Idx → α) : (⟨3, ![8, 2048, 2048]⟩ : Shape).Idx → α :=
  fun j => x (ix4 (n0 := 8) (n1 := 3) (n2 := 2048) (n3 := 2048) (j 0) (chan (j 1).val (j 2).val) (j 1) (j 2))

/-- The mosaic at explicit coordinates. -/
theorem mosaic_apply {α : Type} (x : (⟨4, ![8, 3, 2048, 2048]⟩ : Shape).Idx → α) (b : Fin 8) (r q : Fin 2048) :
    mosaic x (ix3 b r q) = x (ix4 b (chan r.val q.val) r q) := rfl

theorem chan_even {r q : Nat} (h : (r + q) % 2 = 0) : chan r q = 1 := by
  unfold chan; rw [if_pos h]

theorem chan_odd_even {r q : Nat} (h : (r + q) % 2 = 1) (hr : r % 2 = 0) : chan r q = 2 := by
  unfold chan; rw [if_neg (by omega), if_pos hr]

theorem chan_odd_odd {r q : Nat} (h : (r + q) % 2 = 1) (hr : r % 2 = 1) : chan r q = 0 := by
  unfold chan; rw [if_neg (by omega), if_neg (by omega)]

end Cert.Mosaic
-- ==== Proof.KernelPayload.lean ====
/-
  The stored value of the body, read at one pixel.

  The body stores ONE block of shape [1, 128, 2048]: at row p and column q of the block it keeps one of the three channels
  of the loaded block [1, 3, 128, 2048], chosen by two bits computed on 32-bit words: the lowest bit of the image row
  h * 128 + p (h the row tile, the second grid coordinate) and the lowest bit of row + column. Both words are far below
  2^32, so the word arithmetic is the arithmetic of natural numbers and each bit is the parity of the number. The choice is
  then the specification's: row + column even keeps channel 1; odd with the row even keeps channel 2; odd with the row odd
  keeps channel 0.
-/
import proofs.«159555_j8907762172168_1_alg».proof.Proof.Gen.KernelIdeal.Skeleton
import proofs.«159555_j8907762172168_1_alg».proof.Proof.Spec
import Idealize.ShloMosaic.Lib.ValueLayout

noncomputable section

namespace Cert.KernelIdeal.MosaicValue

open Cert.KernelIdeal Cert.KernelIdeal.Gen Cert.Mosaic
open Idealize.ShloMosaic Idealize.ShloMosaic.ValueIdx

variable {F : FTy → Type} [FloatOps F]

/-! ## The parity bit of a word -/

/-- The test "lowest bit set" on a 32-bit word answers the parity of the number the word holds. -/
theorem lowBit_ne_zero (x : BitVec 32) :
    IntOp.cmpi .ne (IntOp.andi x 1#32) 0#32 = if x.toNat % 2 = 1 then 1#1 else 0#1 := by
  have hand : (x &&& 1#32).toNat = x.toNat % 2 := by
    rw [BitVec.toNat_and]
    exact Nat.and_one_is_mod _
  unfold IntOp.cmpi IntOp.andi
  by_cases h : x.toNat % 2 = 1
  · rw [if_pos h]
    have e : x &&& 1#32 = 1#32 := BitVec.eq_of_toNat_eq (by rw [hand, h]; rfl)
    rw [e]
    rfl
  · rw [if_neg h]
    have e : x &&& 1#32 = 0#32 := BitVec.eq_of_toNat_eq (by rw [hand]; show x.toNat % 2 = 0; omega)
    rw [e]
    rfl

/-- The image row of a block's row, as a word: no wrap, since the row tile is below 16 and the row inside it below 128. -/
theorem rowWord_toNat (h p : Nat) (hh : h < 16) (hp : p < 128) :
    (IntOp.addi (Scalar.muli (BitVec.ofNat 32 h) 128#32) (BitVec.ofNat 32 p)).toNat = h * 128 + p := by
  unfold IntOp.addi Scalar.muli IntOp.muli
  rw [BitVec.toNat_add, BitVec.toNat_mul, BitVec.toNat_ofNat, BitVec.toNat_ofNat, BitVec.toNat_ofNat]
  omega

/-- Row plus column as a word: no wrap either, the column being below 2048. -/
theorem sumWord_toNat (h p q : Nat) (hh : h < 16) (hp : p < 128) (hq : q < 2048) :
    (IntOp.addi (IntOp.addi (Scalar.muli (BitVec.ofNat 32 h) 128#32) (BitVec.ofNat 32 p)) (BitVec.ofNat 32 q)).toNat
      = h * 128 + p + q := by
  have e := rowWord_toNat h p hh hp
  unfold IntOp.addi at e ⊢
  rw [BitVec.toNat_add, e, BitVec.toNat_ofNat]
  omega

/-! ## One channel of the loaded block -/

/-- A rank-3 array cut along axis 0 from `o` reads, at `(u, i, j)`, the source at `(k, i, j)` with `k = o + u`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (u : Fin m) (i : Fin n1) (j : Fin n2) (k : Fin n0) (hk : k.val = o + u.val) :
    extractStridedSlice ⟨3, ![m, n1, n2]⟩ ![o, 0, 0] X h (ix3 u i j) = X (ix3 k i j) :=
  extractStridedSlice_apply _ _ _ _ _ (fun ax => by
    match ax with
    | ⟨0, _⟩ => exact hk
    | ⟨1, _⟩ => exact (Nat.zero_add _).symm
    | ⟨2, _⟩ => exact (Nat.zero_add _).symm)

/-- Channel `k` of the loaded block [1, 3, 128, 2048], as the body takes it (the leading unit axis dropped, the slice
    of one channel, its unit axis dropped), at row `p` and column `q`. -/
theorem channel_apply (x0 : Vec F S1x3x128x2048 .f32) (o : Nat) (k : Fin 3) (hk : k.val = o)
    (hs : S3x128x2048.Slices ![o, 0, 0] S1x128x2048) (p : Fin 128) (q : Fin 2048) :
    shapeCast S128x2048 (extractStridedSlice S1x128x2048 ![o, 0, 0]
        (shapeCast S3x128x2048 x0 shapeCasts_S1x3x128x2048_S3x128x2048) hs) shapeCasts_S1x128x2048_S128x2048 (ix2 p q)
      = x0 (ix4 (0 : Fin 1) k p q) := by
  refine (shapeCast_1ab_ab_apply _ _ p q).trans ?_
  refine (slice3_axis0_apply o _ hs (0 : Fin 1) p q k (by rw [hk]; rfl)).trans ?_
  exact shapeCast_1abc_abc_apply x0 _ k p q

/-! ## The stored value at a pixel -/

/-- THE STORED BLOCK AT ROW `p`, COLUMN `q`, at grid point `i` (row tile `i 1`): the loaded block's channel
    `chan (i 1 * 128 + p) q` at that row and column. -/
theorem pay_apply (i : grid0.Coords) (x0 : Vec F S1x3x128x2048 .f32) (p : Fin 128) (q : Fin 2048) :
    k0_pay1 i x0 (ix3 (0 : Fin 1) p q) = x0 (ix4 (0 : Fin 1) (chan ((i 1).val * 128 + p.val) q.val) p q) := by
  have hh : (i 1).val < 16 := (i 1).isLt
  unfold k0_pay1
  dsimp only
  refine (shapeCast_ab_1ab_apply _ _ (0 : Fin 1) p q).trans ?_
  rw [select_apply, select_apply]
  rw [channel_apply x0 0 0 rfl, channel_apply x0 1 1 rfl, channel_apply x0 2 2 rfl]
  have e0 : iota Kind.tc S128x2048 32 [0] iota_S128x2048_d0_w32 (ix2 p q) = BitVec.ofNat 32 p.val :=
    iota_single_apply _ _ _ _ _ _
  have e1 : iota Kind.tc S128x2048 32 [1] iota_S128x2048_d1_w32 (ix2 p q) = BitVec.ofNat 32 q.val :=
    iota_single_apply _ _ _ _ _ _
  -- the row's parity bit
  have bRow : cmpi CmpIPredicate.ne
        (andi
          (addi (broadcast S128x2048 (Scalar.muli (BitVec.ofNat 32 (i 1).val) 128#32))
            (iota Kind.tc S128x2048 32 [0] iota_S128x2048_d0_w32))
          (broadcast S128x2048 1#32))
        (broadcast S128x2048 0#32) (ix2 p q)
      = if ((i 1).val * 128 + p.val) % 2 = 1 then 1#1 else 0#1 := by
    show IntOp.cmpi .ne (IntOp.andi (IntOp.addi (Scalar.muli (BitVec.ofNat 32 (i 1).val) 128#32)
      (iota Kind.tc S128x2048 32 [0] iota_S128x2048_d0_w32 (ix2 p q))) 1#32) 0#32 = _
    rw [e0, lowBit_ne_zero, rowWord_toNat _ _ hh p.isLt]
  -- the parity bit of row + column
  have bSum : cmpi CmpIPredicate.ne
        (andi
          (addi
            (addi (broadcast S128x2048 (Scalar.muli (BitVec.ofNat 32 (i 1).val) 128#32))
              (iota Kind.tc S128x2048 32 [0] iota_S128x2048_d0_w32))
            (iota Kind.tc S128x2048 32 [1] iota_S128x2048_d1_w32))
          (broadcast S128x2048 1#32))
        (broadcast S128x2048 0#32) (ix2 p q)
      = if ((i 1).val * 128 + p.val + q.val) % 2 = 1 then 1#1 else 0#1 := by
    show IntOp.cmpi .ne (IntOp.andi (IntOp.addi (IntOp.addi (Scalar.muli (BitVec.ofNat 32 (i 1).val) 128#32)
      (iota Kind.tc S128x2048 32 [0] iota_S128x2048_d0_w32 (ix2 p q)))
      (iota Kind.tc S128x2048 32 [1] iota_S128x2048_d1_w32 (ix2 p q))) 1#32) 0#32 = _
    rw [e0, e1, lowBit_ne_zero, sumWord_toNat _ _ _ hh p.isLt q.isLt]
  rw [bRow, bSum]
  by_cases hs : ((i 1).val * 128 + p.val + q.val) % 2 = 1
  · rw [if_pos hs, select_one]
    by_cases hr : ((i 1).val * 128 + p.val) % 2 = 1
    · rw [if_pos hr, select_one, chan_odd_odd hs hr]
    · rw [if_neg hr, select_zero, chan_odd_even hs (by omega)]
  · rw [if_neg hs, select_zero, chan_even (by omega)]

end Cert.KernelIdeal.MosaicValue

end
-- ==== Proof.KernelValue.lean ====
/-
  The kernel's result array: the Bayer mosaic of its argument.

  The grid has 8 x 16 points; point (b, h) loads rows h*128 .. h*128+127 of all three channels of image b (a block
  [1, 3, 128, 2048] of the argument) and writes the same rows of image b of the result (a block [1, 128, 2048]). At row p
  and column q of its block the body stores the loaded block's channel `chan (h*128 + p) q`, and the loaded block's row p
  is the argument's row h*128 + p: so what point (b, h) writes back is its block of the mosaic of the argument. The
  output blocks tile the result array (pixel (b, r, q) is in the block of point (b, r / 128)), so after the run the array
  is the mosaic; the argument is only read.
-/
import proofs.«159555_j8907762172168_1_alg».proof.Proof.FrameKernelIdeal
import proofs.«159555_j8907762172168_1_alg».proof.Proof.KernelPayload
import Idealize.ShloMosaic.Lib.Pipeline.Value

noncomputable section

namespace Cert.KernelIdeal.MosaicValue

open Cert.KernelIdeal Cert.KernelIdeal.Gen Cert.KernelIdeal.GenP Cert.Mosaic
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The stored block at any index of the block -/

/-- The stored block at an index `j` of the block [1, 128, 2048]: the loaded block at the same row and column, in the
    channel the parities of the image row and the column choose. -/
theorem pay_at (i : grid0.Coords) (x0 : Vec F S1x3x128x2048 .f32) (j : S1x128x2048.Idx) :
    k0_pay1 i x0 j = x0 (ix4 (0 : Fin 1) (chan ((i 1).val * 128 + (j 1).val) (j 2).val) (j 1) (j 2)) := by
  obtain ⟨u, p, q, rfl⟩ : ∃ (u : Fin 1) (p : Fin 128) (q : Fin 2048), j = ix3 u p q := ⟨j 0, j 1, j 2, eq_ix3 j⟩
  obtain rfl : u = 0 := Subsingleton.elim _ _
  exact pay_apply i x0 p q

/-! ## The index maps, over the grid -/

/-- The two windows' block indices at a grid point, decided over the 128 points: the input block is image `b`, all channels,
    row tile `h`, all columns; the output block is image `b`, row tile `h`, all columns; and `h` is the point's second
    coordinate. -/
theorem idx_facts : ∀ t : Fin cfg0.N,
    win0_0.index t (0 : Fin 4) = win0_1.index t (0 : Fin 3)
    ∧ win0_0.index t (1 : Fin 4) = 0
    ∧ win0_0.index t (2 : Fin 4) = win0_1.index t (1 : Fin 3)
    ∧ win0_0.index t (3 : Fin 4) = 0
    ∧ win0_1.index t (2 : Fin 3) = 0
    ∧ win0_1.index t (1 : Fin 3) = (grid0.coords t (1 : Fin 2)).val :=
  (by decide +kernel : ∀ t : Fin grid0.N, _)

/-- Every pair (image, row tile) is some point's output block. -/
theorem idx_onto : ∀ (b : Fin 8) (h : Fin 16), ∃ t : Fin cfg0.N, win0_1.index t = ![b.val, h.val, 0] :=
  (by decide +kernel : ∀ (b : Fin 8) (h : Fin 16), ∃ t : Fin grid0.N, win0_1.index t = ![b.val, h.val, 0])

/-! ## What a point writes back -/

/-- WHAT POINT `t` WRITES BACK is block `t` of the mosaic of the argument array as the region finds it: the stored block
    reads the input block at the chosen channel, and the input block's row p is the argument's row (row tile) * 128 + p. -/
theorem flushed_eq (c : Dev nD) (t : Fin cfg0.N) :
    (dats m 0 c).flushed 1 t = ((cfg0.win 1).blk t).view.read (Elt F) (mosaic (V m c main_arg0)) := by
  show (cfg0.win 1).cut (grid0.coords t) ((dats m 0 c).after 1 t) = _
  rw [after0_1]
  unfold out0_1
  rw [View.canon_unit_zero zeros3]
  simp only [View.ld_unit_zero (S := S1x3x128x2048) zeros4]
  obtain ⟨e00, e01, e02, e03, e12, e11⟩ := idx_facts t
  funext j
  have hj0 : (j 0).val < 1 := (j 0).isLt
  show k0_pay1 (grid0.coords t) (iblk m c 0 t) j = mosaic (V m c main_arg0) (((cfg0.win 1).blk t).view.emb j)
  refine (pay_at (grid0.coords t) (iblk m c 0 t) j).trans ?_
  show V m c main_arg0 (((cfg0.win 0).blk t).view.emb
        (ix4 (0 : Fin 1) (chan ((grid0.coords t (1 : Fin 2)).val * 128 + (j 1).val) (j 2).val) (j 1) (j 2)))
      = V m c main_arg0 (ix4 ((((cfg0.win 1).blk t).view.emb j) 0)
          (chan ((((cfg0.win 1).blk t).view.emb j) 1).val ((((cfg0.win 1).blk t).view.emb j) 2).val)
          ((((cfg0.win 1).blk t).view.emb j) 1) ((((cfg0.win 1).blk t).view.emb j) 2))
  refine congrArg (V m c main_arg0) (funext fun a => Fin.ext ?_)
  match a with
  | ⟨0, _⟩ =>
    show win0_0.index t (0 : Fin 4) * 1 + 1 * 0 = win0_1.index t (0 : Fin 3) * 1 + 1 * (j 0).val
    omega
  | ⟨1, _⟩ =>
    show win0_0.index t (1 : Fin 4) * 3 + 1 * (chan ((grid0.coords t (1 : Fin 2)).val * 128 + (j 1).val) (j 2).val).val
      = (chan (win0_1.index t (1 : Fin 3) * 128 + 1 * (j 1).val) (win0_1.index t (2 : Fin 3) * 2048 + 1 * (j 2).val)).val
    rw [e01, e11, e12]
    simp only [Nat.zero_mul, Nat.zero_add, Nat.one_mul]
  | ⟨2, _⟩ =>
    show win0_0.index t (2 : Fin 4) * 128 + 1 * (j 1).val = win0_1.index t (1 : Fin 3) * 128 + 1 * (j 1).val
    rw [e02]
  | ⟨3, _⟩ =>
    show win0_0.index t (3 : Fin 4) * 2048 + 1 * (j 2).val = win0_1.index t (2 : Fin 3) * 2048 + 1 * (j 2).val
    rw [e03, e12]

/-! ## The blocks tile the result array -/

/-- An index of the result array is in point `t`'s block iff each coordinate is in the block's range on its axis. -/
theorem mem_blk (t : Fin cfg0.N) (i : S8x2048x2048.Idx) :
    i ∈ ((cfg0.win 1).blk t).view.set ↔ ∀ a : Fin 3, win0_1.index t a * S1x128x2048.size a ≤ (i a).val ∧ (i a).val < win0_1.index t a * S1x128x2048.size a + S1x128x2048.size a := by
  show i ∈ ((View.whole main_v0).slice (win0_1.rect t)).set ↔ _
  rw [View.set_slice_whole, Rect.mem_set_unit]
  exact Iff.rfl

/-- Pixel (b, r, q) of the result is in the block of the point whose output block is (b, r / 128, 0). -/
theorem cover (i : S8x2048x2048.Idx) :
    ∃ t : Fin cfg0.N, (cfg0.win 1).flush t = true ∧ i ∈ ((cfg0.win 1).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 128, by omega⟩
  have q0 : win0_1.index t (0 : Fin 3) = (i 0).val := congrFun ht 0
  have q1 : win0_1.index t (1 : Fin 3) = (i 1).val / 128 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 128 ≤ (i 1).val ∧ (i 1).val < win0_1.index t (1 : Fin 3) * 128 + 128; omega
  | ⟨2, _⟩ => show win0_1.index t (2 : Fin 3) * 2048 ≤ (i 2).val ∧ (i 2).val < win0_1.index t (2 : Fin 3) * 2048 + 2048; omega

/-! ## The result array, and the run -/

/-- THE RESULT ARRAY after the run is the mosaic of the argument as launched. -/
theorem final (c : Dev nD) :
    (dats m 0 c).arrAt 1 cfg0.N = mosaic (m ((c.tc : Thread nD τ).loc main_arg0)) :=
  (dats m 0 c).arrAt_eq_of_cover 1 (mosaic (V m c main_arg0)) (fun t _ => flushed_eq m c t) cover

/-- THE RUN: every weakly fair execution of the program on the TensorCores terminates, and every final state has the
    result array at the mosaic of the argument and the argument as launched. -/
theorem run :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v0) = Cert.Mosaic.mosaic (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.MosaicValue

end
-- ==== Proof.RefRun.lean ====
/-
  The reference program as a straight line, and its run.

  The reference computes, on the host, the channel number c(r, q) of every pixel from the row and column numbers
  (two iotas broadcast to [2048, 2048]; their sum and the row number reduced modulo 2 the way jnp.remainder lowers
  it — a remainder toward zero, corrected by the divisor when the signs differ —; two selects), then takes the image
  along its channel axis at c: a gather whose start index is c(r, q) at result pixel (r, q), guarded by a select on
  "the index is inside [0, 2]" that would put a NaN elsewhere, and a reshape that drops the unit channel axis.
  The functions the program outlines (the remainder, twice; the selects; the take) are written out here at their call
  sites, each operation on the buffers of that call, so that the whole program is ONE list of 92 host operations in
  program order. Running the list leaves every buffer at the fold of the operations' results over what the buffers held
  at launch; the image itself is written by no operation.
-/
import proofs.«159555_j8907762172168_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order, the outlined functions' written out at their calls. -/
abbrev ops : List (HloOp τ sig (Elt F)) :=
  [ nullary main_v0 (iotaInDim S2048 32 0),
    unary main_v0 main_v1 (broadcastInDim S2048x1 ![0] bcast_S2048_S2048x1_0 : (⟨S2048, .i32⟩ : BufTy).Contents (Elt F) → (⟨S2048x1, .i32⟩ : BufTy).Contents (Elt F)),
    nullary main_v2 (iotaInDim S2048 32 0),
    unary main_v2 main_v3 (broadcastInDim S1x2048 ![1] bcast_S2048_S1x2048_1 : (⟨S2048, .i32⟩ : BufTy).Contents (Elt F) → (⟨S1x2048, .i32⟩ : BufTy).Contents (Elt F)),
    unary main_v1 main_v4 (broadcastInDim S2048x2048 ![0, 1] bcast_S2048x1_S2048x2048_0_1 : (⟨S2048x1, .i32⟩ : BufTy).Contents (Elt F) → (⟨S2048x2048, .i32⟩ : BufTy).Contents (Elt F)),
    unary main_v3 main_v5 (broadcastInDim S2048x2048 ![0, 1] bcast_S1x2048_S2048x2048_0_1 : (⟨S1x2048, .i32⟩ : BufTy).Contents (Elt F) → (⟨S2048x2048, .i32⟩ : BufTy).Contents (Elt F)),
    binary main_v4 main_v5 main_v6 (addi : (⟨S2048x2048, .i32⟩ : BufTy).Contents (Elt F) → (⟨S2048x2048, .i32⟩ : BufTy).Contents (Elt F) → (⟨S2048x2048, .i32⟩ : BufTy).Contents (Elt F)),
    nullary main_c (constantI S_ 32 2#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2048x2048 ![] bcast_S_S2048x2048),
    TRef.binary (.of main_v6 : TRef sig ⟨S2048x2048, .i32⟩) main_call0.v3 main_call0.v4 Host.remsi,
    TRef.nullary main_call0.c_1 (constantI S_ 32 0#32),
    TRef.unary main_call0.c_1 main_call0.v5 (broadcastInDim S2048x2048 ![] bcast_S_S2048x2048),
    TRef.binary main_call0.v4 main_call0.v5 main_call0.v6 (cmpi .ne),
    TRef.nullary main_call0.c_2 (constantI S_ 32 0#32),
    TRef.unary main_call0.c_2 main_call0.v7 (broadcastInDim S2048x2048 ![] bcast_S_S2048x2048),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2048x2048 ![] bcast_S_S2048x2048),
    TRef.binary main_call0.v8 main_call0.v10 main_call0.v11 (cmpi .ne),
    TRef.binary main_call0.v11 main_call0.v6 main_call0.v12 andi,
    TRef.unary main_call0.call0.v0 main_call0.v13 (broadcastInDim S2048x2048 ![] bcast_S_S2048x2048),
    TRef.binary main_call0.v4 main_call0.v13 main_call0.v14 addi,
    TRef.ternary main_call0.v12 main_call0.v14 main_call0.v4 main_call0.v15 select,
    nullary main_c_0 (constantI S_ 32 0#32),
    unary main_c_0 main_v8 (broadcastInDim S2048x2048 ![] bcast_S_S2048x2048 : (⟨S_, .i32⟩ : BufTy).Contents (Elt F) → (⟨S2048x2048, .i32⟩ : BufTy).Contents (Elt F)),
    binary main_v7 main_v8 main_v9 (cmpi .eq : (⟨S2048x2048, .i32⟩ : BufTy).Contents (Elt F) → (⟨S2048x2048, .i32⟩ : BufTy).Contents (Elt F) → (⟨S2048x2048, .i1⟩ : BufTy).Contents (Elt F)),
    nullary main_c_1 (constantI S_ 32 2#32),
    TRef.unary (.of main_c_1 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S2048x1 ![] bcast_S_S2048x1),
    TRef.binary (.of main_v1 : TRef sig ⟨S2048x1, .i32⟩) main_call1.v3 main_call1.v4 Host.remsi,
    TRef.nullary main_call1.c_1 (constantI S_ 32 0#32),
    TRef.unary main_call1.c_1 main_call1.v5 (broadcastInDim S2048x1 ![] bcast_S_S2048x1),
    TRef.binary main_call1.v4 main_call1.v5 main_call1.v6 (cmpi .ne),
    TRef.nullary main_call1.c_2 (constantI S_ 32 0#32),
    TRef.unary main_call1.c_2 main_call1.v7 (broadcastInDim S2048x1 ![] bcast_S_S2048x1),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S2048x1 ![] bcast_S_S2048x1),
    TRef.binary main_call1.v8 main_call1.v10 main_call1.v11 (cmpi .ne),
    TRef.binary main_call1.v11 main_call1.v6 main_call1.v12 andi,
    TRef.unary main_call1.call0.v0 main_call1.v13 (broadcastInDim S2048x1 ![] bcast_S_S2048x1),
    TRef.binary main_call1.v4 main_call1.v13 main_call1.v14 addi,
    TRef.ternary main_call1.v12 main_call1.v14 main_call1.v4 main_call1.v15 select,
    nullary main_c_2 (constantI S_ 32 0#32),
    unary main_c_2 main_v11 (broadcastInDim S2048x1 ![] bcast_S_S2048x1 : (⟨S_, .i32⟩ : BufTy).Contents (Elt F) → (⟨S2048x1, .i32⟩ : BufTy).Contents (Elt F)),
    binary main_v10 main_v11 main_v12 (cmpi .eq : (⟨S2048x1, .i32⟩ : BufTy).Contents (Elt F) → (⟨S2048x1, .i32⟩ : BufTy).Contents (Elt F) → (⟨S2048x1, .i1⟩ : BufTy).Contents (Elt F)),
    nullary main_c_3 (constantI S_ 32 2#32),
    nullary main_c_4 (constantI S_ 32 0#32),
    TRef.unary (.of main_c_3 : TRef sig ⟨S_, .i32⟩) main_call2.v0 (broadcastInDim S2048x1 ![] bcast_S_S2048x1),
    TRef.unary (.of main_c_4 : TRef sig ⟨S_, .i32⟩) main_call2.v1 (broadcastInDim S2048x1 ![] bcast_S_S2048x1),
    TRef.ternary (.of main_v12 : TRef sig ⟨S2048x1, .i1⟩) main_call2.v0 main_call2.v1 main_call2.v2 select,
    nullary main_c_5 (constantI S_ 32 1#32),
    TRef.unary (.of main_c_5 : TRef sig ⟨S_, .i32⟩) main_call3.v0 (broadcastInDim S2048x2048 ![] bcast_S_S2048x2048),
    TRef.unary (.of main_v13 : TRef sig ⟨S2048x1, .i32⟩) main_call3.v1 (broadcastInDim S2048x2048 ![0, 1] bcast_S2048x1_S2048x2048_0_1),
    TRef.ternary (.of main_v9 : TRef sig ⟨S2048x2048, .i1⟩) main_call3.v0 main_call3.v1 main_call3.v2 select,
    unary main_v14 main_v15 (broadcastInDim S1x1x2048x2048 ![2, 3] bcast_S2048x2048_S1x1x2048x2048_2_3 : (⟨S2048x2048, .i32⟩ : BufTy).Contents (Elt F) → (⟨S1x1x2048x2048, .i32⟩ : BufTy).Contents (Elt F)),
    TRef.unary (.of main_v15 : TRef sig ⟨S1x1x2048x2048, .i32⟩) main_call4.v0 id,
    TRef.nullary main_call4.c (constantI S_ 32 0#32),
    TRef.unary main_call4.c main_call4.v1 (broadcastInDim S1x1x2048x2048 ![] bcast_S_S1x1x2048x2048),
    TRef.binary main_call4.v0 main_call4.v1 main_call4.v2 (cmpi .slt),
    TRef.nullary main_call4.c_0 (constantI S_ 32 3#32),
    TRef.unary main_call4.c_0 main_call4.v3 (broadcastInDim S1x1x2048x2048 ![] bcast_S_S1x1x2048x2048),
    TRef.binary main_call4.v0 main_call4.v3 main_call4.v4 addi,
    TRef.ternary main_call4.v2 main_call4.v4 main_call4.v0 main_call4.v5 select,
    TRef.reshape main_call4.v5 main_call4.v6 rfl shapeCasts_S1x1x2048x2048_S1x2048x2048x1,
    TRef.nullary main_call4.c_1 (constantI S1 32 2#32),
    TRef.nullary main_call4.c_2 (constantI S_ 32 0#32),
    TRef.unary main_call4.c_2 main_call4.v7 (broadcastInDim S1x2048x2048x1 ![] bcast_S_S1x2048x2048x1),
    TRef.binary main_call4.v6 main_call4.v7 main_call4.v8 (cmpi .sge),
    TRef.unary main_call4.c_1 main_call4.v9 (broadcastInDim S1x1x1x1 ![3] bcast_S1_S1x1x1x1_3),
    TRef.unary main_call4.v9 main_call4.v10 (broadcastInDim S1x2048x2048x1 ![0, 1, 2, 3] bcast_S1x1x1x1_S1x2048x2048x1_0_1_2_3),
    TRef.binary main_call4.v6 main_call4.v10 main_call4.v11 (cmpi .sle),
    TRef.binary main_call4.v8 main_call4.v11 main_call4.v12 andi,
    TRef.nullary main_call4.c_3 (constantI S_ 1 1#1),
    TRef.binary main_call4.v12 main_call4.c_3 main_call4.v13 (fun x v => Host.reduce IntOp.andi x v reducesTo_S1x2048x2048x1_S1x2048x2048_d3 h_S_),
    TRef.binary (.of main_arg0 : TRef sig ⟨S8x3x2048x2048, .f32⟩) main_call4.v6 main_call4.v14 (fun x i => Host.gather gather_S8x3x2048x2048_S1x2048x2048x1_S8x1x2048x2048_0_1_23_12_1_3_8111 x i),
    TRef.unary main_call4.v13 main_call4.v15 (broadcastInDim S8x1x2048x2048 ![1, 2, 3] bcast_S1x2048x2048_S8x1x2048x2048_1_2_3),
    TRef.nullary main_call4.cst (constant S_ .f32 0x7FC00000#32),
    TRef.unary main_call4.cst main_call4.v16 (broadcastInDim S8x1x2048x2048 ![] bcast_S_S8x1x2048x2048),
    TRef.ternary main_call4.v15 main_call4.v14 main_call4.v16 main_call4.v17 select,
    reshape main_v16 main_v17 rfl shapeCasts_S8x1x2048x2048_S8x2048x2048 ]

-- ninety-two binds re-associated: the rewrite under the chain recurses once per statement
set_option maxRecDepth 8192 in
set_option maxHeartbeats 4000000 in
/-- The program is that straight line: the outlined functions unfolded at their calls, sequencing re-associated. -/
theorem main_eq (c : Dev nD) : main (F := F) c = seq ops := by
  simp only [main, fn_remainder.body, fn_remainder_0.body, fn_where.body, fn_where_1.body, fn_where_2.body,
    fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., unary_bufs_sub ..,
    binary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., nullary_bufs_sub .., unary_bufs_sub ..,
    unary_bufs_sub .., ternary_bufs_sub .., nullary_bufs_sub .., unary_bufs_sub .., unary_bufs_sub .., ternary_bufs_sub ..,
    unary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., reshape_bufs_sub ..⟩

/-- Every weakly fair execution of the reference terminates, and leaves each buffer at the fold of the operations'
    results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The stages of the reference's computation, as pure functions and as the arrays of THIS program.

  The row and column numbers and their sum; the lowered `jnp.remainder` (the remainder toward zero, plus the divisor when
  the remainder is not zero and its sign differs from the divisor's); "is zero"; the channel number (1 where the sum is
  even, else 2 where the row is even, else 0), also with two unit axes in front; the take's start indices (the channel
  number, with 3 added where negative, re-laid from [1, 1, R, Q] to [1, R, Q, 1]); the test "the start index is in
  [0, 2]"; the guarded take (the image gathered along its channel axis where the test holds, a NaN elsewhere); and the
  result, `refOut`: the take with its unit channel axis dropped.
-/
import proofs.«159555_j8907762172168_1_alg».proof.Proof.RefRun

set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The stages, as functions -/

/-- `jnp.remainder x d` as it lowers, for an integer array `x` and a scalar divisor `d`: with `w` the divisor (1 in
    place of 0) and `r` the remainder toward zero of `x` by `w`, the result is `r + w` where `r ≠ 0` and the signs of `r`
    and `w` differ, and `r` elsewhere. -/
def remArr (s : Shape) (B : S_.BroadcastsInDim s (![] : Fin 0 → Fin s.rank)) (x : IVec s 32) (d : IVec S_ 32) : IVec s 32 :=
  let w : IVec S_ 32 := select (cmpi .eq d (constantI S_ 32 0#32)) (constantI S_ 32 1#32) d
  let r : IVec s 32 := Host.remsi x (broadcastInDim s ![] B w)
  select
    (andi (cmpi .ne (cmpi .slt r (broadcastInDim s ![] B (constantI S_ 32 0#32)))
                    (broadcastInDim s ![] B (cmpi .slt w (constantI S_ 32 0#32))))
          (cmpi .ne r (broadcastInDim s ![] B (constantI S_ 32 0#32))))
    (addi r (broadcastInDim s ![] B w)) r

/-- The row numbers as a column, and the column numbers as a row. -/
def rowNo : IVec S2048x1 32 := broadcastInDim S2048x1 ![0] bcast_S2048_S2048x1_0 (iotaInDim S2048 32 0)
def colNo : IVec S1x2048 32 := broadcastInDim S1x2048 ![1] bcast_S2048_S1x2048_1 (iotaInDim S2048 32 0)

/-- Row number plus column number, at every pixel. -/
def sumNo : IVec S2048x2048 32 :=
  addi (broadcastInDim S2048x2048 ![0, 1] bcast_S2048x1_S2048x2048_0_1 rowNo)
       (broadcastInDim S2048x2048 ![0, 1] bcast_S1x2048_S2048x2048_0_1 colNo)

/-- "Is zero", of an array of sums' remainders. -/
def isZero (v : IVec S2048x2048 32) : IVec S2048x2048 1 :=
  cmpi .eq v (broadcastInDim S2048x2048 ![] bcast_S_S2048x2048 (constantI S_ 32 0#32))

/-- From the rows' remainders: "the row is even", and the channel of an odd-sum pixel by row (2 on an even row, 0 on
    an odd one). -/
def rowEvenOf (rr : IVec S2048x1 32) : IVec S2048x1 1 :=
  cmpi .eq rr (broadcastInDim S2048x1 ![] bcast_S_S2048x1 (constantI S_ 32 0#32))
def rowChanOf (rr : IVec S2048x1 32) : IVec S2048x1 32 :=
  select (rowEvenOf rr) (broadcastInDim S2048x1 ![] bcast_S_S2048x1 (constantI S_ 32 2#32))
    (broadcastInDim S2048x1 ![] bcast_S_S2048x1 (constantI S_ 32 0#32))

/-- The channel number at every pixel, from "the sum is even" and the rows' remainders: 1 where the sum is even, the
    row's channel elsewhere; and the same with two unit axes in front. -/
def chanNoOf (se : IVec S2048x2048 1) (rr : IVec S2048x1 32) : IVec S2048x2048 32 :=
  select se (broadcastInDim S2048x2048 ![] bcast_S_S2048x2048 (constantI S_ 32 1#32))
    (broadcastInDim S2048x2048 ![0, 1] bcast_S2048x1_S2048x2048_0_1 (rowChanOf rr))
def chan4Of (se : IVec S2048x2048 1) (rr : IVec S2048x1 32) : IVec S1x1x2048x2048 32 :=
  broadcastInDim S1x1x2048x2048 ![2, 3] bcast_S2048x2048_S1x1x2048x2048_2_3 (chanNoOf se rr)

/-- The take's index wrap (3 added to a negative index), and its start indices: one per pixel, the index vector's axis
    last. -/
def wrappedOf (c4 : IVec S1x1x2048x2048 32) : IVec S1x1x2048x2048 32 :=
  select (cmpi .slt c4 (broadcastInDim S1x1x2048x2048 ![] bcast_S_S1x1x2048x2048 (constantI S_ 32 0#32)))
    (addi c4 (broadcastInDim S1x1x2048x2048 ![] bcast_S_S1x1x2048x2048 (constantI S_ 32 3#32))) c4
def startsOf (c4 : IVec S1x1x2048x2048 32) : IVec S1x2048x2048x1 32 :=
  shapeCast S1x2048x2048x1 (wrappedOf c4) shapeCasts_S1x1x2048x2048_S1x2048x2048x1

/-- "The start index lies in [0, 2]": at every pixel and on the index vector's unit axis, and with that axis reduced
    away by `and`. -/
def insideArg (st : IVec S1x2048x2048x1 32) : IVec S1x2048x2048x1 1 :=
  andi (cmpi .sge st (broadcastInDim S1x2048x2048x1 ![] bcast_S_S1x2048x2048x1 (constantI S_ 32 0#32)))
       (cmpi .sle st (broadcastInDim S1x2048x2048x1 ![0, 1, 2, 3] bcast_S1x1x1x1_S1x2048x2048x1_0_1_2_3
         (broadcastInDim S1x1x1x1 ![3] bcast_S1_S1x1x1x1_3 (constantI S1 32 2#32))))
def reduceAnd (v : IVec S1x2048x2048x1 1) : IVec S1x2048x2048 1 :=
  Host.reduce IntOp.andi v (constantI S_ 1 1#1) reducesTo_S1x2048x2048x1_S1x2048x2048_d3 h_S_
def insideOf (st : IVec S1x2048x2048x1 32) : IVec S1x2048x2048 1 := reduceAnd (insideArg st)

/-- The image gathered along its channel axis at start indices `st`, kept where `ins` holds, a NaN elsewhere; the channel
    axis stays as a unit axis. -/
def guardedTake (x : FVec F S8x3x2048x2048 .f32) (st : IVec S1x2048x2048x1 32) (ins : IVec S1x2048x2048 1) :
    FVec F S8x1x2048x2048 .f32 :=
  select (broadcastInDim S8x1x2048x2048 ![1, 2, 3] bcast_S1x2048x2048_S8x1x2048x2048_1_2_3 ins)
    (Host.gather gather_S8x3x2048x2048_S1x2048x2048x1_S8x1x2048x2048_0_1_23_12_1_3_8111 x st)
    (broadcastInDim S8x1x2048x2048 ![] bcast_S_S8x1x2048x2048 (constant S_ .f32 0x7FC00000#32))

/-- The take of the image at the channel numbers `c4`: gathered at their start indices, guarded by their inside test. -/
def takenOf (x : FVec F S8x3x2048x2048 .f32) (c4 : IVec S1x1x2048x2048 32) : FVec F S8x1x2048x2048 .f32 :=
  guardedTake x (startsOf c4) (insideOf (startsOf c4))

/-! ## The stages of THIS program -/

def sumEven : IVec S2048x2048 1 := isZero (remArr S2048x2048 bcast_S_S2048x2048 sumNo (constantI S_ 32 2#32))
def rowRem : IVec S2048x1 32 := remArr S2048x1 bcast_S_S2048x1 rowNo (constantI S_ 32 2#32)
def chanNo : IVec S2048x2048 32 := chanNoOf sumEven rowRem
def chan4 : IVec S1x1x2048x2048 32 := chan4Of sumEven rowRem
def starts : IVec S1x2048x2048x1 32 := startsOf chan4
def inside : IVec S1x2048x2048 1 := insideOf starts
def taken (x : FVec F S8x3x2048x2048 .f32) : FVec F S8x1x2048x2048 .f32 := takenOf x chan4
def refOut (x : FVec F S8x3x2048x2048 .f32) : FVec F S8x2048x2048 .f32 :=
  shapeCast S8x2048x2048 (taken x) shapeCasts_S8x1x2048x2048_S8x2048x2048

end Cert.ReferenceIdeal.RefValue

end
-- ==== Proof.RefSplit.lean ====
/-
  The reference's operations in ten consecutive stretches: the row and column numbers and their sum; the lowered
  remainder of the sum by two; the test "the sum is even"; the lowered remainder of the row number by two; the channel
  number with two unit axes in front; the take's start indices; the take's test "the start index is in [0, 2]" (before and at its reduction over the unit axis); the
  guarded gather; the reshape that drops the unit channel axis. The list of all operations is their concatenation, and
  running a concatenation is running its parts one after the other.
-/
import proofs.«159555_j8907762172168_1_alg».proof.Proof.RefRun

set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

abbrev segA : List (HloOp τ sig (Elt F)) :=
  [ nullary main_v0 (iotaInDim S2048 32 0),
    unary main_v0 main_v1 (broadcastInDim S2048x1 ![0] bcast_S2048_S2048x1_0 : (⟨S2048, .i32⟩ : BufTy).Contents (Elt F) → (⟨S2048x1, .i32⟩ : BufTy).Contents (Elt F)),
    nullary main_v2 (iotaInDim S2048 32 0),
    unary main_v2 main_v3 (broadcastInDim S1x2048 ![1] bcast_S2048_S1x2048_1 : (⟨S2048, .i32⟩ : BufTy).Contents (Elt F) → (⟨S1x2048, .i32⟩ : BufTy).Contents (Elt F)),
    unary main_v1 main_v4 (broadcastInDim S2048x2048 ![0, 1] bcast_S2048x1_S2048x2048_0_1 : (⟨S2048x1, .i32⟩ : BufTy).Contents (Elt F) → (⟨S2048x2048, .i32⟩ : BufTy).Contents (Elt F)),
    unary main_v3 main_v5 (broadcastInDim S2048x2048 ![0, 1] bcast_S1x2048_S2048x2048_0_1 : (⟨S1x2048, .i32⟩ : BufTy).Contents (Elt F) → (⟨S2048x2048, .i32⟩ : BufTy).Contents (Elt F)),
    binary main_v4 main_v5 main_v6 (addi : (⟨S2048x2048, .i32⟩ : BufTy).Contents (Elt F) → (⟨S2048x2048, .i32⟩ : BufTy).Contents (Elt F) → (⟨S2048x2048, .i32⟩ : BufTy).Contents (Elt F)) ]
abbrev segR0 : List (HloOp τ sig (Elt F)) :=
  [ nullary main_c (constantI S_ 32 2#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2048x2048 ![] bcast_S_S2048x2048),
    TRef.binary (.of main_v6 : TRef sig ⟨S2048x2048, .i32⟩) main_call0.v3 main_call0.v4 Host.remsi,
    TRef.nullary main_call0.c_1 (constantI S_ 32 0#32),
    TRef.unary main_call0.c_1 main_call0.v5 (broadcastInDim S2048x2048 ![] bcast_S_S2048x2048),
    TRef.binary main_call0.v4 main_call0.v5 main_call0.v6 (cmpi .ne),
    TRef.nullary main_call0.c_2 (constantI S_ 32 0#32),
    TRef.unary main_call0.c_2 main_call0.v7 (broadcastInDim S2048x2048 ![] bcast_S_S2048x2048),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2048x2048 ![] bcast_S_S2048x2048),
    TRef.binary main_call0.v8 main_call0.v10 main_call0.v11 (cmpi .ne),
    TRef.binary main_call0.v11 main_call0.v6 main_call0.v12 andi,
    TRef.unary main_call0.call0.v0 main_call0.v13 (broadcastInDim S2048x2048 ![] bcast_S_S2048x2048),
    TRef.binary main_call0.v4 main_call0.v13 main_call0.v14 addi,
    TRef.ternary main_call0.v12 main_call0.v14 main_call0.v4 main_call0.v15 select ]
abbrev segB : List (HloOp τ sig (Elt F)) :=
  [ nullary main_c_0 (constantI S_ 32 0#32),
    unary main_c_0 main_v8 (broadcastInDim S2048x2048 ![] bcast_S_S2048x2048 : (⟨S_, .i32⟩ : BufTy).Contents (Elt F) → (⟨S2048x2048, .i32⟩ : BufTy).Contents (Elt F)),
    binary main_v7 main_v8 main_v9 (cmpi .eq : (⟨S2048x2048, .i32⟩ : BufTy).Contents (Elt F) → (⟨S2048x2048, .i32⟩ : BufTy).Contents (Elt F) → (⟨S2048x2048, .i1⟩ : BufTy).Contents (Elt F)) ]
abbrev segR1 : List (HloOp τ sig (Elt F)) :=
  [ nullary main_c_1 (constantI S_ 32 2#32),
    TRef.unary (.of main_c_1 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S2048x1 ![] bcast_S_S2048x1),
    TRef.binary (.of main_v1 : TRef sig ⟨S2048x1, .i32⟩) main_call1.v3 main_call1.v4 Host.remsi,
    TRef.nullary main_call1.c_1 (constantI S_ 32 0#32),
    TRef.unary main_call1.c_1 main_call1.v5 (broadcastInDim S2048x1 ![] bcast_S_S2048x1),
    TRef.binary main_call1.v4 main_call1.v5 main_call1.v6 (cmpi .ne),
    TRef.nullary main_call1.c_2 (constantI S_ 32 0#32),
    TRef.unary main_call1.c_2 main_call1.v7 (broadcastInDim S2048x1 ![] bcast_S_S2048x1),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S2048x1 ![] bcast_S_S2048x1),
    TRef.binary main_call1.v8 main_call1.v10 main_call1.v11 (cmpi .ne),
    TRef.binary main_call1.v11 main_call1.v6 main_call1.v12 andi,
    TRef.unary main_call1.call0.v0 main_call1.v13 (broadcastInDim S2048x1 ![] bcast_S_S2048x1),
    TRef.binary main_call1.v4 main_call1.v13 main_call1.v14 addi,
    TRef.ternary main_call1.v12 main_call1.v14 main_call1.v4 main_call1.v15 select ]
abbrev segC : List (HloOp τ sig (Elt F)) :=
  [ nullary main_c_2 (constantI S_ 32 0#32),
    unary main_c_2 main_v11 (broadcastInDim S2048x1 ![] bcast_S_S2048x1 : (⟨S_, .i32⟩ : BufTy).Contents (Elt F) → (⟨S2048x1, .i32⟩ : BufTy).Contents (Elt F)),
    binary main_v10 main_v11 main_v12 (cmpi .eq : (⟨S2048x1, .i32⟩ : BufTy).Contents (Elt F) → (⟨S2048x1, .i32⟩ : BufTy).Contents (Elt F) → (⟨S2048x1, .i1⟩ : BufTy).Contents (Elt F)),
    nullary main_c_3 (constantI S_ 32 2#32),
    nullary main_c_4 (constantI S_ 32 0#32),
    TRef.unary (.of main_c_3 : TRef sig ⟨S_, .i32⟩) main_call2.v0 (broadcastInDim S2048x1 ![] bcast_S_S2048x1),
    TRef.unary (.of main_c_4 : TRef sig ⟨S_, .i32⟩) main_call2.v1 (broadcastInDim S2048x1 ![] bcast_S_S2048x1),
    TRef.ternary (.of main_v12 : TRef sig ⟨S2048x1, .i1⟩) main_call2.v0 main_call2.v1 main_call2.v2 select,
    nullary main_c_5 (constantI S_ 32 1#32),
    TRef.unary (.of main_c_5 : TRef sig ⟨S_, .i32⟩) main_call3.v0 (broadcastInDim S2048x2048 ![] bcast_S_S2048x2048),
    TRef.unary (.of main_v13 : TRef sig ⟨S2048x1, .i32⟩) main_call3.v1 (broadcastInDim S2048x2048 ![0, 1] bcast_S2048x1_S2048x2048_0_1),
    TRef.ternary (.of main_v9 : TRef sig ⟨S2048x2048, .i1⟩) main_call3.v0 main_call3.v1 main_call3.v2 select,
    unary main_v14 main_v15 (broadcastInDim S1x1x2048x2048 ![2, 3] bcast_S2048x2048_S1x1x2048x2048_2_3 : (⟨S2048x2048, .i32⟩ : BufTy).Contents (Elt F) → (⟨S1x1x2048x2048, .i32⟩ : BufTy).Contents (Elt F)) ]
abbrev segT1 : List (HloOp τ sig (Elt F)) :=
  [ TRef.unary (.of main_v15 : TRef sig ⟨S1x1x2048x2048, .i32⟩) main_call4.v0 id,
    TRef.nullary main_call4.c (constantI S_ 32 0#32),
    TRef.unary main_call4.c main_call4.v1 (broadcastInDim S1x1x2048x2048 ![] bcast_S_S1x1x2048x2048),
    TRef.binary main_call4.v0 main_call4.v1 main_call4.v2 (cmpi .slt),
    TRef.nullary main_call4.c_0 (constantI S_ 32 3#32),
    TRef.unary main_call4.c_0 main_call4.v3 (broadcastInDim S1x1x2048x2048 ![] bcast_S_S1x1x2048x2048),
    TRef.binary main_call4.v0 main_call4.v3 main_call4.v4 addi,
    TRef.ternary main_call4.v2 main_call4.v4 main_call4.v0 main_call4.v5 select,
    TRef.reshape main_call4.v5 main_call4.v6 rfl shapeCasts_S1x1x2048x2048_S1x2048x2048x1 ]
abbrev segT2a : List (HloOp τ sig (Elt F)) :=
  [ TRef.nullary main_call4.c_1 (constantI S1 32 2#32),
    TRef.nullary main_call4.c_2 (constantI S_ 32 0#32),
    TRef.unary main_call4.c_2 main_call4.v7 (broadcastInDim S1x2048x2048x1 ![] bcast_S_S1x2048x2048x1),
    TRef.binary main_call4.v6 main_call4.v7 main_call4.v8 (cmpi .sge),
    TRef.unary main_call4.c_1 main_call4.v9 (broadcastInDim S1x1x1x1 ![3] bcast_S1_S1x1x1x1_3),
    TRef.unary main_call4.v9 main_call4.v10 (broadcastInDim S1x2048x2048x1 ![0, 1, 2, 3] bcast_S1x1x1x1_S1x2048x2048x1_0_1_2_3),
    TRef.binary main_call4.v6 main_call4.v10 main_call4.v11 (cmpi .sle),
    TRef.binary main_call4.v8 main_call4.v11 main_call4.v12 andi ]
abbrev segT2b : List (HloOp τ sig (Elt F)) :=
  [ TRef.nullary main_call4.c_3 (constantI S_ 1 1#1),
    TRef.binary main_call4.v12 main_call4.c_3 main_call4.v13 (fun x v => Host.reduce IntOp.andi x v reducesTo_S1x2048x2048x1_S1x2048x2048_d3 h_S_) ]
abbrev segT3 : List (HloOp τ sig (Elt F)) :=
  [ TRef.binary (.of main_arg0 : TRef sig ⟨S8x3x2048x2048, .f32⟩) main_call4.v6 main_call4.v14 (fun x i => Host.gather gather_S8x3x2048x2048_S1x2048x2048x1_S8x1x2048x2048_0_1_23_12_1_3_8111 x i),
    TRef.unary main_call4.v13 main_call4.v15 (broadcastInDim S8x1x2048x2048 ![1, 2, 3] bcast_S1x2048x2048_S8x1x2048x2048_1_2_3),
    TRef.nullary main_call4.cst (constant S_ .f32 0x7FC00000#32),
    TRef.unary main_call4.cst main_call4.v16 (broadcastInDim S8x1x2048x2048 ![] bcast_S_S8x1x2048x2048),
    TRef.ternary main_call4.v15 main_call4.v14 main_call4.v16 main_call4.v17 select ]
abbrev segD : List (HloOp τ sig (Elt F)) :=
  [ reshape main_v16 main_v17 rfl shapeCasts_S8x1x2048x2048_S8x2048x2048 ]

/-- The operations are the ten stretches, in order. -/
theorem ops_split : (ops : List (HloOp τ sig (Elt F)))
    = segA ++ (segR0 ++ (segB ++ (segR1 ++ (segC ++ (segT1 ++ (segT2a ++ (segT2b ++ (segT3 ++ segD)))))))) := rfl

/-- Running one line after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

end Cert.ReferenceIdeal.RefValue

end
-- ==== Proof.RefStretchA.lean ====
/-
  The short stretches: the prologue, the two tests' neighbours, the channel number, the final reshape.
  Each stretch of the reference, run from ANY contents `W`, leaves its result buffer at a named function of the buffers it
  reads, and leaves every buffer it does not write as it was.
-/
import proofs.«159555_j8907762172168_1_alg».proof.Proof.RefStages
import proofs.«159555_j8907762172168_1_alg».proof.Proof.RefSplit

set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

variable (W : Valuation τ sig (Elt F))

theorem segA_sum : after segA W (main_v6 : DevRef τ sig) = sumNo := by after_results_simp; rfl

theorem segA_row : after segA W (main_v1 : DevRef τ sig) = rowNo := by after_results_simp; rfl

theorem segA_img : after segA W (main_arg0 : DevRef τ sig) = W (main_arg0 : DevRef τ sig) := by after_results_simp

theorem segB_even : after segB W (main_v9 : DevRef τ sig) = isZero (W (main_v7 : DevRef τ sig)) := by after_results_simp; rfl

theorem segB_row : after segB W (main_v1 : DevRef τ sig) = W (main_v1 : DevRef τ sig) := by after_results_simp

theorem segB_img : after segB W (main_arg0 : DevRef τ sig) = W (main_arg0 : DevRef τ sig) := by after_results_simp

theorem segC_chan : after segC W (main_v15 : DevRef τ sig) = chan4Of (W (main_v9 : DevRef τ sig)) (W (main_v10 : DevRef τ sig)) := by
  after_results_simp; rfl

theorem segC_img : after segC W (main_arg0 : DevRef τ sig) = W (main_arg0 : DevRef τ sig) := by after_results_simp

theorem segD_out : after segD W (main_v17 : DevRef τ sig)
    = shapeCast S8x2048x2048 (W (main_v16 : DevRef τ sig) : FVec F S8x1x2048x2048 .f32) shapeCasts_S8x1x2048x2048_S8x2048x2048 := by
  after_results_simp; rfl

theorem segD_img : after segD W (main_arg0 : DevRef τ sig) = W (main_arg0 : DevRef τ sig) := by after_results_simp

end Cert.ReferenceIdeal.RefValue

end
-- ==== Proof.RefStretchR.lean ====
/-
  The two lowered remainders.
  Each stretch of the reference, run from ANY contents `W`, leaves its result buffer at a named function of the buffers it
  reads, and leaves every buffer it does not write as it was.
-/
import proofs.«159555_j8907762172168_1_alg».proof.Proof.RefStages
import proofs.«159555_j8907762172168_1_alg».proof.Proof.RefSplit

set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

variable (W : Valuation τ sig (Elt F))

theorem segR0_rem : after segR0 W (main_v7 : DevRef τ sig)
    = remArr S2048x2048 bcast_S_S2048x2048 (W (main_v6 : DevRef τ sig)) (constantI S_ 32 2#32) := by after_results_simp; rfl

theorem segR0_row : after segR0 W (main_v1 : DevRef τ sig) = W (main_v1 : DevRef τ sig) := by after_results_simp

theorem segR0_img : after segR0 W (main_arg0 : DevRef τ sig) = W (main_arg0 : DevRef τ sig) := by after_results_simp

theorem segR1_rem : after segR1 W (main_v10 : DevRef τ sig)
    = remArr S2048x1 bcast_S_S2048x1 (W (main_v1 : DevRef τ sig)) (constantI S_ 32 2#32) := by after_results_simp; rfl

theorem segR1_even : after segR1 W (main_v9 : DevRef τ sig) = W (main_v9 : DevRef τ sig) := by after_results_simp

theorem segR1_img : after segR1 W (main_arg0 : DevRef τ sig) = W (main_arg0 : DevRef τ sig) := by after_results_simp

end Cert.ReferenceIdeal.RefValue

end
-- ==== Proof.RefStretchT1.lean ====
/-
  The take's start indices.
  Each stretch of the reference, run from ANY contents `W`, leaves its result buffer at a named function of the buffers it
  reads, and leaves every buffer it does not write as it was.
-/
import proofs.«159555_j8907762172168_1_alg».proof.Proof.RefStages
import proofs.«159555_j8907762172168_1_alg».proof.Proof.RefSplit

set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

variable (W : Valuation τ sig (Elt F))

theorem segT1_starts : after segT1 W (main_call4_v6 : DevRef τ sig) = startsOf (W (main_v15 : DevRef τ sig)) := by
  after_results_simp; rfl

theorem segT1_img : after segT1 W (main_arg0 : DevRef τ sig) = W (main_arg0 : DevRef τ sig) := by after_results_simp

end Cert.ReferenceIdeal.RefValue

end
-- ==== Proof.RefStretchT2.lean ====
/-
  The take's test "the start index is in [0, 2]": the two comparisons and their conjunction, then the reduction over the index vector's unit axis.
  Each stretch of the reference, run from ANY contents `W`, leaves its result buffer at a named function of the buffers it
  reads, and leaves every buffer it does not write as it was.
-/
import proofs.«159555_j8907762172168_1_alg».proof.Proof.RefStages
import proofs.«159555_j8907762172168_1_alg».proof.Proof.RefSplit

set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

variable (W : Valuation τ sig (Elt F))

theorem segT2a_arg : after segT2a W (main_call4_v12 : DevRef τ sig) = insideArg (W (main_call4_v6 : DevRef τ sig)) := by
  after_results_simp; rfl

theorem segT2a_starts : after segT2a W (main_call4_v6 : DevRef τ sig) = W (main_call4_v6 : DevRef τ sig) := by after_results_simp

theorem segT2a_img : after segT2a W (main_arg0 : DevRef τ sig) = W (main_arg0 : DevRef τ sig) := by after_results_simp

attribute [local irreducible] Host.reduce in
theorem segT2b_reduce : after segT2b W (main_call4_v13 : DevRef τ sig) = reduceAnd (W (main_call4_v12 : DevRef τ sig)) := by
  after_results_simp; rfl

theorem segT2b_starts : after segT2b W (main_call4_v6 : DevRef τ sig) = W (main_call4_v6 : DevRef τ sig) := by after_results_simp

theorem segT2b_img : after segT2b W (main_arg0 : DevRef τ sig) = W (main_arg0 : DevRef τ sig) := by after_results_simp

end Cert.ReferenceIdeal.RefValue

end
-- ==== Proof.RefStretchT3.lean ====
/-
  The guarded gather.
  Each stretch of the reference, run from ANY contents `W`, leaves its result buffer at a named function of the buffers it
  reads, and leaves every buffer it does not write as it was.
-/
import proofs.«159555_j8907762172168_1_alg».proof.Proof.RefStages
import proofs.«159555_j8907762172168_1_alg».proof.Proof.RefSplit

set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

variable (W : Valuation τ sig (Elt F))

attribute [local irreducible] Host.gather in
theorem segT3_taken : after segT3 W (main_v16 : DevRef τ sig)
    = guardedTake (F := F) (W (main_arg0 : DevRef τ sig)) (W (main_call4_v6 : DevRef τ sig)) (W (main_call4_v13 : DevRef τ sig)) := by
  after_results_simp; rfl

theorem segT3_img : after segT3 W (main_arg0 : DevRef τ sig) = W (main_arg0 : DevRef τ sig) := by after_results_simp

end Cert.ReferenceIdeal.RefValue

end
-- ==== Proof.RefTerm.lean ====
/-
  What the reference's result buffer holds, as ONE term of the image.

  The stretches composed: the fold of all the operations, read at the result buffer, is `refOut` of the contents of the
  image's buffer — each stretch's result rewritten in turn, last stretch first, and each buffer carried unchanged through
  the stretches that do not write it —; read at the image's buffer it is the image.
-/
import proofs.«159555_j8907762172168_1_alg».proof.Proof.RefStretchA
import proofs.«159555_j8907762172168_1_alg».proof.Proof.RefStretchR
import proofs.«159555_j8907762172168_1_alg».proof.Proof.RefStretchT1
import proofs.«159555_j8907762172168_1_alg».proof.Proof.RefStretchT2
import proofs.«159555_j8907762172168_1_alg».proof.Proof.RefStretchT3

set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The operations' fold at the result buffer is `refOut` of the image's contents. -/
theorem out_eq (V : Valuation τ sig (Elt F)) :
    after ops V (main_v17 : DevRef τ sig) = refOut (F := F) (V (main_arg0 : DevRef τ sig)) := by
  rw [ops_split, after_append, after_append, after_append, after_append, after_append, after_append, after_append,
    after_append, after_append,
    segD_out, segT3_taken, segT2b_reduce, segT2b_starts, segT2b_img, segT2a_arg, segT2a_starts, segT2a_img,
    segT1_starts, segT1_img,
    segC_chan, segC_img, segR1_rem, segR1_even, segR1_img, segB_even, segB_row, segB_img,
    segR0_rem, segR0_row, segR0_img, segA_sum, segA_row, segA_img]
  rfl

/-- No operation writes the image's buffer. -/
theorem arg0_eq (V : Valuation τ sig (Elt F)) :
    after ops V (main_arg0 : DevRef τ sig) = V (main_arg0 : DevRef τ sig) := by
  rw [ops_split, after_append, after_append, after_append, after_append, after_append, after_append, after_append,
    after_append, after_append,
    segD_img, segT3_img, segT2b_img, segT2a_img, segT1_img, segC_img, segR1_img, segB_img, segR0_img, segA_img]

end Cert.ReferenceIdeal.RefValue

end
-- ==== Proof.RefWords.lean ====
/-
  Word arithmetic behind the reference's channel number.

  On 32-bit words: `jnp.remainder` by two of a number below 2^31 is the number modulo 2 (the remainder toward zero of a
  non-negative word is its residue, and the sign correction does not fire); comparing that residue with zero tests the
  number's parity; the two selects on the parities of r + q and r give the channel number `chan r q`; and for a channel
  number (0, 1 or 2) the take's wrap of negative indices leaves it alone, the test "in [0, 2]" holds, and the clamp
  into [0, 2] of its signed value is the number itself.
-/
import Idealize.ShloMosaic.PureOps
import proofs.«159555_j8907762172168_1_alg».proof.Proof.Spec

namespace Cert.Mosaic

open Idealize.ShloMosaic

/-- `jnp.remainder x d` as it lowers, on one word: `w` is the divisor (1 in place of 0), `r` the remainder toward zero of
    `x` by `w`; the result is `r + w` when `r ≠ 0` and the signs of `r` and `w` differ, else `r`. -/
def remWord (x d : BitVec 32) : BitVec 32 :=
  let w : BitVec 32 := Scalar.select (IntOp.cmpi .eq d 0#32) 1#32 d
  let r : BitVec 32 := IntOp.remsi .host x w
  Scalar.select
    (IntOp.andi (IntOp.cmpi .ne (IntOp.cmpi .slt r 0#32) (IntOp.cmpi .slt w 0#32)) (IntOp.cmpi .ne r 0#32))
    (IntOp.addi r w) r

/-- The remainder toward zero by two of a non-negative word is its residue modulo two. -/
theorem srem_two (n : Nat) (hn : n < 2 ^ 31) : (BitVec.ofNat 32 n).srem 2#32 = BitVec.ofNat 32 (n % 2) := by
  have hx : (BitVec.ofNat 32 n).msb = false := by
    rw [BitVec.msb_eq_decide]; simp only [BitVec.toNat_ofNat, decide_eq_false_iff_not, not_le]; omega
  have hy : (2#32 : BitVec 32).msb = false := by decide
  unfold BitVec.srem
  rw [hx, hy]
  apply BitVec.eq_of_toNat_eq
  show (BitVec.ofNat 32 n).toNat % (2#32 : BitVec 32).toNat = (BitVec.ofNat 32 (n % 2)).toNat
  simp only [BitVec.toNat_ofNat]
  have h2 : (2 : Nat) % 2 ^ 32 = 2 := by norm_num
  rw [h2, Nat.mod_eq_of_lt (show n < 2 ^ 32 by omega), Nat.mod_eq_of_lt (show n % 2 < 2 ^ 32 by omega)]

/-- The lowered remainder by two of a number below 2^31 is the number modulo two. -/
theorem remWord_two (n : Nat) (hn : n < 2 ^ 31) : remWord (BitVec.ofNat 32 n) 2#32 = BitVec.ofNat 32 (n % 2) := by
  have hw : Scalar.select (IntOp.cmpi .eq (2#32 : BitVec 32) 0#32) (1#32 : BitVec 32) 2#32 = 2#32 := by decide
  have hc : ¬ IntOp.SDivCorner (BitVec.ofNat 32 n) (2#32 : BitVec 32) := by
    unfold IntOp.SDivCorner
    rintro (h | ⟨_, h⟩)
    · exact absurd h (by decide)
    · exact absurd h (by decide)
  have hr : IntOp.remsi .host (BitVec.ofNat 32 n) 2#32 = BitVec.ofNat 32 (n % 2) := by
    unfold IntOp.remsi; rw [if_neg hc]; exact srem_two n hn
  unfold remWord
  simp only [hw, hr]
  rcases Nat.mod_two_eq_zero_or_one n with h | h <;> rw [h] <;> decide

/-- Comparing the residue with zero tests the parity. -/
theorem cmpi_eq_residue (n : Nat) :
    IntOp.cmpi .eq (BitVec.ofNat 32 (n % 2)) 0#32 = if n % 2 = 0 then 1#1 else 0#1 := by
  rcases Nat.mod_two_eq_zero_or_one n with h | h <;> rw [h] <;> decide

/-- The two selects on the parities give the channel number. -/
theorem chan_word (r q : Nat) :
    Scalar.select (if (r + q) % 2 = 0 then 1#1 else 0#1) (1#32 : BitVec 32)
        (Scalar.select (if r % 2 = 0 then 1#1 else 0#1) 2#32 0#32)
      = BitVec.ofNat 32 (chan r q).val := by
  unfold chan
  by_cases h : (r + q) % 2 = 0
  · rw [if_pos h, if_pos h]; rfl
  · rw [if_neg h, if_neg h]
    by_cases hr : r % 2 = 0
    · rw [if_pos hr, if_pos hr]; rfl
    · rw [if_neg hr, if_neg hr]; rfl

/-- A channel number is not negative, so the take's wrap leaves it alone. -/
theorem wrap_chan (k : Fin 3) :
    Scalar.select (IntOp.cmpi .slt (BitVec.ofNat 32 k.val) 0#32) (IntOp.addi (BitVec.ofNat 32 k.val) 3#32) (BitVec.ofNat 32 k.val)
      = BitVec.ofNat 32 k.val := by
  fin_cases k <;> decide

/-- A channel number lies in [0, 2]. -/
theorem inside_chan (k : Fin 3) :
    IntOp.andi (IntOp.cmpi .sge (BitVec.ofNat 32 k.val) 0#32) (IntOp.cmpi .sle (BitVec.ofNat 32 k.val) 2#32) = 1#1 := by
  fin_cases k <;> decide

/-- The clamp into [0, 2] of a channel number's signed value is the number. -/
theorem clamp_chan (k : Fin 3) : min (BitVec.ofNat 32 k.val).toInt.toNat 2 = k.val := by
  fin_cases k <;> decide

end Cert.Mosaic
-- ==== Proof.RefRead.lean ====
/-
  The reference's result, read at an index.

  Stage by stage, at pixel (r, q) (r, q below 2048): the row and column numbers are r and q as words; their sum is r + q;
  the lowered remainders by two are (r + q) mod 2 and r mod 2, so the two parity tests are the parities of r + q and of r;
  the channel number is `chan r q` as a word; the take's wrap leaves it alone (it is not negative); re-laying
  [1, 1, R, Q] as [1, R, Q, 1] keeps the pixel's place in row-major order; the test "in [0, 2]" holds at every pixel, so
  its reduction over the unit axis is 1 everywhere and the guarded select keeps the gathered value; the gather at result
  index (b, 0, r, q) reads the image at batch b, at the channel the start index at (0, r, q, 0) names (read signed and
  clamped into [0, 2]: the channel number itself), at row r and column q; and dropping the unit channel axis keeps the
  place. Hence the result at (b, r, q) is the image at (b, chan r q, r, q): the reference computes the mosaic.
-/
import proofs.«159555_j8907762172168_1_alg».proof.Proof.RefStages
import proofs.«159555_j8907762172168_1_alg».proof.Proof.RefWords
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.Mosaic

variable {F : FTy → Type} [FloatOps F]

/-! ## Two general facts -/

/-- An `and`-reduction of an array of ones, from the initial value one, is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  unfold Host.reduce
  rw [hi]
  generalize ((List.finRange s.numel).filter fun n => h.drop (s.rowMajor.symm n) = j) = l
  induction l with
  | nil => rfl
  | cons a l ih => rw [List.foldl_cons, hx]; exact ih

/-- The take's dimension numbers: the image [8, 3, R, Q] taken along its channel axis at one start index per pixel
    ([1, R, Q, 1]), rows and columns batched, the result [8, 1, R, Q]. -/
abbrev takeDims : GatherDims S8x3x2048x2048 S1x2048x2048x1 S8x1x2048x2048 :=
  gather_S8x3x2048x2048_S1x2048x2048x1_S8x1x2048x2048_0_1_23_12_1_3_8111

/-- The take read at (b, 0, r, q): the image at batch b, at the channel the start index at (0, r, q, 0) names (read
    signed, clamped into [0, 2]), at row r and column q. -/
theorem take_apply {α : Type} (x : S8x3x2048x2048.Idx → α) (idx : IVec S1x2048x2048x1 32) (b : Fin 8) (r q : Fin 2048) :
    Host.gather takeDims x idx (ix4 b (0 : Fin 1) r q)
      = x (ix4 b (⟨min (idx (ix4 (0 : Fin 1) r q (0 : Fin 1))).toInt.toNat 2, by omega⟩ : Fin 3) r q) := by
  unfold Host.gather
  congr 1
  funext a
  refine Fin.ext ?_
  show takeDims.start (ix4 b (0 : Fin 1) r q) idx a + takeDims.batchCoord (ix4 b (0 : Fin 1) r q) a
      + takeDims.offCoord (ix4 b (0 : Fin 1) r q) a = _
  have n0s : (0 : Fin 4) ∉ takeDims.startIndexMap := by decide
  have n0b : (0 : Fin 4) ∉ takeDims.operandBatchingDims := by decide
  have m0k : (0 : Fin 4) ∈ takeDims.sKept := by decide
  have m1s : (1 : Fin 4) ∈ takeDims.startIndexMap := by decide
  have n1b : (1 : Fin 4) ∉ takeDims.operandBatchingDims := by decide
  have n1k : (1 : Fin 4) ∉ takeDims.sKept := by decide
  have m2b : (2 : Fin 4) ∈ takeDims.operandBatchingDims := by decide
  have n2k : (2 : Fin 4) ∉ takeDims.sKept := by decide
  have m3b : (3 : Fin 4) ∈ takeDims.operandBatchingDims := by decide
  have n3k : (3 : Fin 4) ∉ takeDims.sKept := by decide
  match a with
  | ⟨0, h0⟩ =>
    have hs : takeDims.start (ix4 b (0 : Fin 1) r q) idx ⟨0, h0⟩ = 0 := by
      unfold GatherDims.start; rw [dif_neg (show (⟨0, h0⟩ : Fin 4) ∉ takeDims.startIndexMap from n0s)]
    rw [hs, takeDims.batchCoord_eq_zero _ ⟨0, h0⟩ n0b]
    unfold GatherDims.offCoord
    rw [dif_pos (show (⟨0, h0⟩ : Fin 4) ∈ takeDims.sKept from m0k)]
    simp only [Nat.zero_add]
    rfl
  | ⟨1, h1⟩ =>
    rw [takeDims.batchCoord_eq_zero _ ⟨1, h1⟩ n1b, takeDims.offCoord_eq_zero _ ⟨1, h1⟩ n1k]
    simp only [Nat.add_zero]
    unfold GatherDims.start
    rw [dif_pos (show (⟨1, h1⟩ : Fin 4) ∈ takeDims.startIndexMap from m1s)]
    have hsi : takeDims.siIdx (ix4 b (0 : Fin 1) r q) ⟨List.idxOf (⟨1, h1⟩ : Fin 4) takeDims.startIndexMap,
        List.idxOf_lt_length_iff.2 m1s⟩ = ix4 (0 : Fin 1) r q (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨2, h2⟩ =>
    rw [takeDims.start_batching _ _ ⟨2, h2⟩ m2b, takeDims.offCoord_eq_zero _ ⟨2, h2⟩ n2k]
    unfold GatherDims.batchCoord
    rw [dif_pos (show (⟨2, h2⟩ : Fin 4) ∈ takeDims.operandBatchingDims from m2b)]
    simp only [Nat.zero_add, Nat.add_zero]
    rfl
  | ⟨3, h3⟩ =>
    rw [takeDims.start_batching _ _ ⟨3, h3⟩ m3b, takeDims.offCoord_eq_zero _ ⟨3, h3⟩ n3k]
    unfold GatherDims.batchCoord
    rw [dif_pos (show (⟨3, h3⟩ : Fin 4) ∈ takeDims.operandBatchingDims from m3b)]
    simp only [Nat.zero_add, Nat.add_zero]
    rfl

/-! ## The stages at a pixel -/

/-- The lowered remainder of an array by a constant, at an index, is the lowered remainder of the word there. -/
theorem remArr_const_apply (s : Shape) (B : S_.BroadcastsInDim s (![] : Fin 0 → Fin s.rank)) (x : IVec s 32) (c : BitVec 32)
    (i : s.Idx) : remArr s B x (constantI S_ 32 c) i = remWord (x i) c := rfl

theorem rowNo_apply (r : Fin 2048) : rowNo (ix2 r (0 : Fin 1)) = BitVec.ofNat 32 r.val := rfl

theorem colNo_apply (q : Fin 2048) : colNo (ix2 (0 : Fin 1) q) = BitVec.ofNat 32 q.val := rfl

theorem sumNo_apply (r q : Fin 2048) : sumNo (ix2 r q) = BitVec.ofNat 32 (r.val + q.val) := by
  show IntOp.addi (BitVec.ofNat 32 r.val) (BitVec.ofNat 32 q.val) = _
  unfold IntOp.addi
  exact (BitVec.ofNat_add _ _).symm

theorem sumEven_apply (r q : Fin 2048) : sumEven (ix2 r q) = if (r.val + q.val) % 2 = 0 then 1#1 else 0#1 := by
  show IntOp.cmpi .eq (remWord (sumNo (ix2 r q)) 2#32) 0#32 = _
  rw [sumNo_apply, remWord_two _ (by have := r.isLt; have := q.isLt; omega), cmpi_eq_residue]

theorem rowRem_apply (r : Fin 2048) : rowRem (ix2 r (0 : Fin 1)) = BitVec.ofNat 32 (r.val % 2) := by
  show remWord (rowNo (ix2 r (0 : Fin 1))) 2#32 = _
  rw [rowNo_apply, remWord_two _ (by have := r.isLt; omega)]

theorem rowChan_apply (r : Fin 2048) :
    rowChanOf rowRem (ix2 r (0 : Fin 1)) = Scalar.select (if r.val % 2 = 0 then 1#1 else 0#1) (2#32 : BitVec 32) 0#32 := by
  show Scalar.select (IntOp.cmpi .eq (rowRem (ix2 r (0 : Fin 1))) 0#32) (2#32 : BitVec 32) 0#32 = _
  rw [rowRem_apply, cmpi_eq_residue]

/-- The channel number at pixel (r, q). -/
theorem chanNo_apply (r q : Fin 2048) : chanNo (ix2 r q) = BitVec.ofNat 32 (chan r.val q.val).val := by
  unfold chanNo chanNoOf
  rw [select_apply, sumEven_apply,
    broadcastInDim_apply _ bcast_S2048x1_S2048x2048_0_1 (rowChanOf rowRem) (ix2 r q) (ix2 r (0 : Fin 1))
      (fun a => by match a with | ⟨0, _⟩ => rfl | ⟨1, _⟩ => rfl),
    rowChan_apply]
  exact chan_word r.val q.val

theorem chan4_apply (r q : Fin 2048) : chan4 (ix4 (0 : Fin 1) (0 : Fin 1) r q) = BitVec.ofNat 32 (chan r.val q.val).val := by
  unfold chan4 chan4Of
  rw [broadcastInDim_apply _ bcast_S2048x2048_S1x1x2048x2048_2_3 (chanNoOf sumEven rowRem) (ix4 (0 : Fin 1) (0 : Fin 1) r q) (ix2 r q)
      (fun a => by match a with | ⟨0, _⟩ => rfl | ⟨1, _⟩ => rfl)]
  exact chanNo_apply r q

theorem wrapped_apply (r q : Fin 2048) :
    wrappedOf chan4 (ix4 (0 : Fin 1) (0 : Fin 1) r q) = BitVec.ofNat 32 (chan r.val q.val).val := by
  show Scalar.select (IntOp.cmpi .slt (chan4 (ix4 (0 : Fin 1) (0 : Fin 1) r q)) 0#32)
      (IntOp.addi (chan4 (ix4 (0 : Fin 1) (0 : Fin 1) r q)) 3#32) (chan4 (ix4 (0 : Fin 1) (0 : Fin 1) r q)) = _
  rw [chan4_apply]
  exact wrap_chan _

/-- The start index of pixel (r, q). -/
theorem starts_apply (r q : Fin 2048) : starts (ix4 (0 : Fin 1) r q (0 : Fin 1)) = BitVec.ofNat 32 (chan r.val q.val).val := by
  unfold starts startsOf
  rw [shapeCast_apply (wrappedOf chan4) shapeCasts_S1x1x2048x2048_S1x2048x2048x1 (ix4 (0 : Fin 1) r q (0 : Fin 1))
      (ix4 (0 : Fin 1) (0 : Fin 1) r q)
      (by rw [Shape.rowMajor_val_four, Shape.rowMajor_val_four]
          show ((0 * 1 + 0) * 2048 + r.val) * 2048 + q.val = ((0 * 2048 + r.val) * 2048 + q.val) * 1 + 0
          omega),
    wrapped_apply]

/-- Every start index lies in [0, 2]. -/
theorem inside_apply (j : S1x2048x2048.Idx) : insideOf (startsOf chan4) j = 1#1 := by
  unfold insideOf reduceAnd
  refine reduce_andi_ones _ _ _ _ j (fun i => ?_) (fun _ => rfl)
  obtain ⟨a, r, q, d, rfl⟩ : ∃ (a : Fin 1) (r q : Fin 2048) (d : Fin 1), i = ix4 a r q d := ⟨i 0, i 1, i 2, i 3, eq_ix4 i⟩
  obtain rfl : a = 0 := Subsingleton.elim _ _
  obtain rfl : d = 0 := Subsingleton.elim _ _
  show IntOp.andi (IntOp.cmpi .sge (starts (ix4 (0 : Fin 1) r q (0 : Fin 1))) 0#32)
      (IntOp.cmpi .sle (starts (ix4 (0 : Fin 1) r q (0 : Fin 1))) 2#32) = 1#1
  rw [starts_apply]
  exact inside_chan _

/-- The guarded take at (b, 0, r, q) is the image at (b, chan r q, r, q). -/
theorem taken_apply (x : FVec F S8x3x2048x2048 .f32) (b : Fin 8) (r q : Fin 2048) :
    taken x (ix4 b (0 : Fin 1) r q) = x (ix4 b (chan r.val q.val) r q) := by
  unfold taken takenOf guardedTake
  rw [select_apply, broadcastInDim_apply _ bcast_S1x2048x2048_S8x1x2048x2048_1_2_3 (insideOf (startsOf chan4))
      (ix4 b (0 : Fin 1) r q) (ix3 (0 : Fin 1) r q)
      (fun a => by match a with | ⟨0, _⟩ => rfl | ⟨1, _⟩ => rfl | ⟨2, _⟩ => rfl),
    inside_apply, select_one, take_apply]
  have key : ∀ (w : BitVec 32) (_ : w = BitVec.ofNat 32 (chan r.val q.val).val) (h : min w.toInt.toNat 2 < 3),
      (⟨min w.toInt.toNat 2, h⟩ : Fin 3) = chan r.val q.val := by
    intro w hw h
    subst hw
    exact Fin.ext (clamp_chan _)
  exact congrArg (fun k : Fin 3 => x (ix4 b k r q)) (key _ (starts_apply r q) _)

/-- The reference's result at (b, r, q) is the image at (b, chan r q, r, q). -/
theorem refOut_apply (x : FVec F S8x3x2048x2048 .f32) (b : Fin 8) (r q : Fin 2048) :
    refOut x (ix3 b r q) = x (ix4 b (chan r.val q.val) r q) := by
  unfold refOut
  rw [shapeCast_apply (taken x) shapeCasts_S8x1x2048x2048_S8x2048x2048 (ix3 b r q) (ix4 b (0 : Fin 1) r q)
      (by rw [Shape.rowMajor_val_four, Shape.rowMajor_val_three]
          show ((b.val * 1 + 0) * 2048 + r.val) * 2048 + q.val = (b.val * 2048 + r.val) * 2048 + q.val
          omega),
    taken_apply]

/-- THE REFERENCE COMPUTES THE MOSAIC. -/
theorem refOut_eq_mosaic (x : FVec F S8x3x2048x2048 .f32) : refOut x = mosaic x := by
  funext j
  obtain ⟨b, r, q, rfl⟩ : ∃ (b : Fin 8) (r q : Fin 2048), j = ix3 b r q := ⟨j 0, j 1, j 2, eq_ix3 j⟩
  rw [refOut_apply, mosaic_apply]

end Cert.ReferenceIdeal.RefValue

end
-- ==== Proof.lean ====
/-
  The certificate of the Bayer channel select against its jnp reference.

  Both programs take an image x of shape [8, 3, 2048, 2048] and produce its MOSAIC, the array of shape [8, 2048, 2048]
  that keeps at pixel (r, q) one channel of x, chosen by parities: channel 1 where r + q is even, channel 2 where r + q
  is odd and r even, channel 0 where both are odd (Proof/Spec.lean). Nothing is computed with the pixel values, so the
  two results are equal as extended reals for every input, finite or not: the precondition is never opened.

  The kernel walks a grid of 8 x 16 points; point (b, h) loads rows 128 h .. 128 h + 127 of the three channels of image b
  and stores, at row p and column q of its block, the channel two selects choose from the lowest bits of 128 h + p and of
  128 h + p + q — the parities, since these words are far below 2^32 (Proof/KernelPayload.lean). What a point writes back
  is therefore its block of the mosaic, the blocks tile the result, and the result array after the run is the mosaic
  (Proof/KernelValue.lean, over the frame run of Proof/FrameKernelIdeal.lean).

  The reference computes the channel number c(r, q) on the host, as `jnp.where` of two `jnp.remainder`s by two of
  iotas, and takes x along its channel axis at c. Its ninety-two host operations, the outlined functions written out at
  their calls, run as one straight line (Proof/RefRun.lean); read in seven stretches, the result buffer holds one term of
  the image (Proof/RefStages.lean … Proof/RefTerm.lean); and that term at (b, r, q) is x at (b, chan r q, r, q): the
  lowered remainder of a number below 2^31 by two is its residue, the take's start index is the channel number, never
  wrapped, never clamped, always inside [0, 2], so the guard that would write a NaN keeps the gathered value
  (Proof/RefWords.lean, Proof/RefRead.lean).

  The three frames are the runs with their value dropped; the idealized kernel is the kernel's own text (no rewrite was
  applied), so `preserves` has nothing to state.
-/
import proofs.«159555_j8907762172168_1_alg».proof.Defs
import proofs.«159555_j8907762172168_1_alg».proof.Proof.Gen.Kernel
import proofs.«159555_j8907762172168_1_alg».proof.Proof.Gen.KernelIdeal
import proofs.«159555_j8907762172168_1_alg».proof.Proof.Gen.ReferenceIdeal
import proofs.«159555_j8907762172168_1_alg».proof.Proof.Gen.Pre_finite_inputs
import proofs.«159555_j8907762172168_1_alg».proof.Proof.FrameKernel
import proofs.«159555_j8907762172168_1_alg».proof.Proof.KernelValue
import proofs.«159555_j8907762172168_1_alg».proof.Proof.RefTerm
import proofs.«159555_j8907762172168_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.StableHlo

/-- The reference's run, at any float instance: every weakly fair execution terminates with the result buffer at the
    mosaic of the image as launched, and the image's buffer unchanged. -/
theorem reference_run {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v17)
            = Cert.Mosaic.mosaic (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run (Cert.ReferenceIdeal.defs (F := F)) _ _).mono
    (fun _ h c => ⟨(h c Cert.ReferenceIdeal.main_v17).trans
        ((Cert.ReferenceIdeal.RefValue.out_eq (launchContents m c)).trans
          (Cert.ReferenceIdeal.RefValue.refOut_eq_mosaic _)),
      (h c Cert.ReferenceIdeal.main_arg0).trans (Cert.ReferenceIdeal.RefValue.arg0_eq (launchContents m c))⟩)
    (Cert.ReferenceIdeal.RefRun.run_all m ρ)

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run (Cert.ReferenceIdeal.defs (F := Ideal)) _ _).mono (fun _ h c => (h c).2) (reference_run (F := Ideal) m ρ)

/-- The ideal pass rewrote no operation: there is nothing to preserve. -/
theorem preserves : Cert.preserves_Kernel_KernelIdeal := trivial

/-- From memories that agree on the image, both idealized programs end with the mosaic of that image. -/
theorem algebraic : Cert.algebraic_KernelIdeal_ReferenceIdeal := by
  intro m ρ m' ρ' _ hagree
  refine ⟨_, Cert.KernelIdeal.MosaicValue.run (F := Ideal) m ρ, ?_⟩
  refine (θ_run (Cert.ReferenceIdeal.defs (F := Ideal)) _ _).mono (fun _ h c => ⟨(h c).1.trans ?_, (h c).2⟩)
    (reference_run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
